-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x128 : Shape := ⟨2, ![150000, 128]⟩
abbrev S2x600000 : Shape := ⟨2, ![2, 600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S150000x128 : S_.BroadcastsInDim S150000x128 (![] : Fin 0 → Fin S150000x128.rank)
  reducesTo_S150000x128_S_d0_1 : S150000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S1x64 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S150000x128 .f32) (main_arg1 : IVec S2x600000 32) (main_arg2 : FVec F S64x128 .f32) (main_arg3 : FVec F S64 .f32) (main_arg4 : FVec F S64x64 .f32) (main_arg5 : FVec F S64 .f32) (main_arg6 : FVec F S1x64 .f32) (main_arg7 : FVec F S1 .f32) : IVec S_ 1 :=
  let main_v0 : FVec F S150000x128 .f32 := Host.absf main_arg0
  let main_cst : FVec F S_ .f32 := constant S_ .f32 0x7F800000#32
  let main_v1 : FVec F S150000x128 .f32 := broadcastInDim S150000x128 ![] bcast_S_S150000x128 main_cst
  let main_v2 : IVec S150000x128 1 := cmpf .olt main_v0 main_v1
  let main_c : IVec S_ 1 := constantI S_ 1 1#1
  let main_v3 : IVec S_ 1 := (fun x v => Host.reduce IntOp.andi x v reducesTo_S150000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S150000x128 : Shape := ⟨2, ![150000, 128]⟩
abbrev S2x600000 : Shape := ⟨2, ![2, 600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S150000 : Shape := ⟨1, ![150000]⟩
abbrev S1x600000 : Shape := ⟨2, ![1, 600000]⟩
abbrev S600000 : Shape := ⟨1, ![600000]⟩
abbrev S750000 : Shape := ⟨1, ![750000]⟩
abbrev S_ : Shape := ⟨0, ![]⟩
abbrev S750000x1 : Shape := ⟨2, ![750000, 1]⟩
abbrev S150000x64 : Shape := ⟨2, ![150000, 64]⟩
abbrev S10000x128 : Shape := ⟨2, ![10000, 128]⟩
abbrev S10000x64 : Shape := ⟨2, ![10000, 64]⟩
abbrev S128x64 : Shape := ⟨2, ![128, 64]⟩
abbrev S750000x64 : Shape := ⟨2, ![750000, 64]⟩
abbrev S1x1 : Shape := ⟨2, ![1, 1]⟩
abbrev S150000x1 : Shape := ⟨2, ![150000, 1]⟩
abbrev S10000x1 : Shape := ⟨2, ![10000, 1]⟩
abbrev S64x1 : Shape := ⟨2, ![64, 1]⟩
abbrev S10000x15 : Shape := ⟨2, ![10000, 15]⟩
abbrev S10000x12 : Shape := ⟨2, ![10000, 12]⟩
abbrev S120000 : Shape := ⟨1, ![120000]⟩

abbrev nBuf : Space → Nat
  | .hbm => 89
  | .vmem => 18
  | .smem => 0
  | _ => 0

abbrev bufTy : (tb : Table) → Fin (tcTables nBuf tb) → BufTy
  | .hbm, ⟨0, _⟩ => ⟨S150000x128, .f32⟩
  | .hbm, ⟨1, _⟩ => ⟨S2x600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S150000, .i32⟩
  | .hbm, ⟨9, _⟩ => ⟨S1x600000, .i32⟩
  | .hbm, ⟨10, _⟩ => ⟨S600000, .i32⟩
  | .hbm, ⟨11, _⟩ => ⟨S750000, .i32⟩
  | .hbm, ⟨12, _⟩ => ⟨S1x600000, .i32⟩
  | .hbm, ⟨13, _⟩ => ⟨S600000, .i32⟩
  | .hbm, ⟨14, _⟩ => ⟨S750000, .i32⟩
  | .hbm, ⟨15, _⟩ => ⟨S_, .f32⟩
  | .hbm, ⟨16, _⟩ => ⟨S750000, .f32⟩
  | .hbm, ⟨17, _⟩ => ⟨S_, .f32⟩
  | .hbm, ⟨18, _⟩ => ⟨S150000, .f32⟩
  | .hbm, ⟨19, _⟩ => ⟨S750000x1, .i32⟩
  | .hbm, ⟨20, _⟩ => ⟨S150000, .f32⟩
  | .hbm, ⟨21, _⟩ => ⟨S_, .f32⟩
  | .hbm, ⟨22, _⟩ => ⟨S150000, .f32⟩
  | .hbm, ⟨23, _⟩ => ⟨S150000, .i1⟩
  | .hbm, ⟨24, _⟩ => ⟨S150000, .f32⟩
  | .hbm, ⟨25, _⟩ => ⟨S_, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S_, .i32⟩
  | .hbm, ⟨30, _⟩ => ⟨S750000, .i32⟩
  | .hbm, ⟨31, _⟩ => ⟨S750000, .i1⟩
  | .hbm, ⟨32, _⟩ => ⟨S_, .i32⟩
  | .hbm, ⟨33, _⟩ => ⟨S750000, .i32⟩
  | .hbm, ⟨34, _⟩ => ⟨S750000, .i32⟩
  | .hbm, ⟨35, _⟩ => ⟨S750000, .i32⟩
  | .hbm, ⟨36, _⟩ => ⟨S750000x1, .i32⟩
  | .hbm, ⟨37, _⟩ => ⟨S750000, .f32⟩
  | .hbm, ⟨38, _⟩ => ⟨S_, .i32⟩
  | .hbm, ⟨39, _⟩ => ⟨S750000, .i32⟩
  | .hbm, ⟨40, _⟩ => ⟨S750000, .i1⟩
  | .hbm, ⟨41, _⟩ => ⟨S_, .i32⟩
  | .hbm, ⟨42, _⟩ => ⟨S750000, .i32⟩
  | .hbm, ⟨43, _⟩ => ⟨S750000, .i32⟩
  | .hbm, ⟨44, _⟩ => ⟨S750000, .i32⟩
  | .hbm, ⟨45, _⟩ => ⟨S750000x1, .i32⟩
  | .hbm, ⟨46, _⟩ => ⟨S750000, .f32⟩
  | .hbm, ⟨47, _⟩ => ⟨S750000, .f32⟩
  | .hbm, ⟨48, _⟩ => ⟨S150000x64, .f32⟩
  | .hbm, ⟨49, _⟩ => ⟨S_, .i32⟩
  | .hbm, ⟨50, _⟩ => ⟨S750000, .i32⟩
  | .hbm, ⟨51, _⟩ => ⟨S750000, .i1⟩
  | .hbm, ⟨52, _⟩ => ⟨S_, .i32⟩
  | .hbm, ⟨53, _⟩ => ⟨S750000, .i32⟩
  | .hbm, ⟨54, _⟩ => ⟨S750000, .i32⟩
  | .hbm, ⟨55, _⟩ => ⟨S750000, .i32⟩
  | .hbm, ⟨56, _⟩ => ⟨S750000x1, .i32⟩
  | .hbm, ⟨57, _⟩ => ⟨S750000x64, .f32⟩
  | .hbm, ⟨58, _⟩ => ⟨S750000x1, .f32⟩
  | .hbm, ⟨59, _⟩ => ⟨S750000x64, .f32⟩
  | .hbm, ⟨60, _⟩ => ⟨S750000x64, .f32⟩
  | .hbm, ⟨61, _⟩ => ⟨S_, .f32⟩
  | .hbm, ⟨62, _⟩ => ⟨S150000x64, .f32⟩
  | .hbm, ⟨63, _⟩ => ⟨S750000x1, .i32⟩
  | .hbm, ⟨64, _⟩ => ⟨S150000x64, .f32⟩
  | .hbm, ⟨65, _⟩ => ⟨S1x64, .f32⟩
  | .hbm, ⟨66, _⟩ => ⟨S150000x64, .f32⟩
  | .hbm, ⟨67, _⟩ => ⟨S_, .i32⟩
  | .hbm, ⟨68, _⟩ => ⟨S750000, .i32⟩
  | .hbm, ⟨69, _⟩ => ⟨S750000, .i1⟩
  | .hbm, ⟨70, _⟩ => ⟨S_, .i32⟩
  | .hbm, ⟨71, _⟩ => ⟨S750000, .i32⟩
  | .hbm, ⟨72, _⟩ => ⟨S750000, .i32⟩
  | .hbm, ⟨73, _⟩ => ⟨S750000, .i32⟩
  | .hbm, ⟨74, _⟩ => ⟨S750000x1, .i32⟩
  | .hbm, ⟨75, _⟩ => ⟨S750000x64, .f32⟩
  | .hbm, ⟨76, _⟩ => ⟨S750000x1, .f32⟩
  | .hbm, ⟨77, _⟩ => ⟨S750000x64, .f32⟩
  | .hbm, ⟨78, _⟩ => ⟨S750000x64, .f32⟩
  | .hbm, ⟨79, _⟩ => ⟨S_, .f32⟩
  | .hbm, ⟨80, _⟩ => ⟨S150000x64, .f32⟩
  | .hbm, ⟨81, _⟩ => ⟨S750000x1, .i32⟩
  | .hbm, ⟨82, _⟩ => ⟨S150000x64, .f32⟩
  | .hbm, ⟨83, _⟩ => ⟨S1x64, .f32⟩
  | .hbm, ⟨84, _⟩ => ⟨S1x1, .f32⟩
  | .hbm, ⟨85, _⟩ => ⟨S150000x1, .f32⟩
  | .hbm, ⟨86, _⟩ => ⟨S10000x15, .f32⟩
  | .hbm, ⟨87, _⟩ => ⟨S10000x12, .f32⟩
  | .hbm, ⟨88, _⟩ => ⟨S120000, .f32⟩
  | .local _ .vmem, ⟨0, _⟩ => ⟨S10000x128, .f32⟩
  | .local _ .vmem, ⟨1, _⟩ => ⟨S10000x128, .f32⟩
  | .local _ .vmem, ⟨2, _⟩ => ⟨S64x128, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S1x64, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S150000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x600000_S1x600000_0_0 : S2x600000.Slices ![0, 0] S1x600000
  shapeCasts_S1x600000_S600000 : S1x600000.ShapeCasts S600000
  concatenates_S600000_S150000_S750000_d0 : Shape.Concatenates [S600000, S150000] S750000 0
  slices_S2x600000_S1x600000_1_0 : S2x600000.Slices ![1, 0] S1x600000
  bcast_S_S750000 : S_.BroadcastsInDim S750000 (![] : Fin 0 → Fin S750000.rank)
  bcast_S_S150000 : S_.BroadcastsInDim S150000 (![] : Fin 0 → Fin S150000.rank)
  bcast_S750000_S750000x1_0 : S750000.BroadcastsInDim S750000x1 (![0] : Fin 1 → Fin S750000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S10000x64_S10000x64_0_0 : ∀ a, (![0, 0] : Fin 2 → Nat) a + S10000x64.size a ≤ S10000x64.size a
  h_S10000x64 : 0 < S10000x64.numel
  bcast_S750000x1_S750000x64_0_1 : S750000x1.BroadcastsInDim S750000x64 (![0, 1] : Fin 2 → Fin S750000x64.rank)
  bcast_S_S150000x64 : S_.BroadcastsInDim S150000x64 (![] : Fin 0 → Fin S150000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S1_S1x1 : S1.ShapeCasts S1x1
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S150000x1_S10000x15 : S150000x1.ShapeCasts S10000x15
  slices_S10000x15_S10000x12_0_3 : S10000x15.Slices ![0, 3] S10000x12
  shapeCasts_S10000x12_S120000 : S10000x12.ShapeCasts S120000
  scatter_S150000_S750000x1_S750000_n_0_0_1_wf : ScatterDims.WF S150000 S750000x1 S750000 [] [0] [0] 1
  gather_S150000_S750000x1_S750000_n_0_n_n_0_1_1_wf : GatherDims.WF S150000 S750000x1 S750000 [] [0] [] [0] [] 1 ![1]
  dot_S10000x128_S128x64_S10000x64_1_0_0_1_n_n_wf : DotDims.WF S10000x128 S128x64 S10000x64 [1] [0] [0] [1] [] []
  gather_S150000x64_S750000x1_S750000x64_1_0_n_n_0_1_164_wf : GatherDims.WF S150000x64 S750000x1 S750000x64 [1] [0] [] [0] [] 1 ![1, 64]
  scatter_S150000x64_S750000x1_S750000x64_1_0_0_1_wf : ScatterDims.WF S150000x64 S750000x1 S750000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S150000x128.size a
  hwx0_0 : ∀ i : grid0.Coords, EltTy.bits .f32 = 32 ∨ (Rect.block (s := S150000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S150000x64.size a
  hwx0_2 : ∀ i : grid0.Coords, EltTy.bits .f32 = 32 ∨ (Rect.block (s := S150000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S150000x64.size a
  hwx1_3 : ∀ i : grid1.Coords, EltTy.bits .f32 = 32 ∨ (Rect.block (s := S150000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S150000x64.size a
  hwx2_0 : ∀ i : grid2.Coords, EltTy.bits .f32 = 32 ∨ (Rect.block (s := S150000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S150000x1.size a
  hwx2_4 : ∀ i : grid2.Coords, EltTy.bits .f32 = 32 ∨ (Rect.block (s := S150000x1) S10000x1.size (cc2_transform_4 i) (hinb2_4 i)).WholeWords (EltTy.packing .f32)

variable [Facts₀]

def scatter_S150000_S750000x1_S750000_n_0_0_1 : ScatterDims S150000 S750000x1 S750000 where
  updateWindowDims := []
  insertedWindowDims := [0]
  scatterDimsToOperandDims := [0]
  indexVectorDim := 1
  wf := scatter_S150000_S750000x1_S750000_n_0_0_1_wf
def gather_S150000_S750000x1_S750000_n_0_n_n_0_1_1 : GatherDims S150000 S750000x1 S750000 where
  offsetDims := []
  collapsedSliceDims := [0]
  operandBatchingDims := []
  startIndicesBatchingDims := []
  startIndexMap := [0]
  indexVectorDim := 1
  sliceSizes := ![1]
  wf := gather_S150000_S750000x1_S750000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S150000x64_S750000x1_S750000x64_1_0_n_n_0_1_164 : GatherDims S150000x64 S750000x1 S750000x64 where
  offsetDims := [1]
  collapsedSliceDims := [0]
  operandBatchingDims := []
  startIndicesBatchingDims := []
  startIndexMap := [0]
  indexVectorDim := 1
  sliceSizes := ![1, 64]
  wf := gather_S150000x64_S750000x1_S750000x64_1_0_n_n_0_1_164_wf
def scatter_S150000x64_S750000x1_S750000x64_1_0_0_1 : ScatterDims S150000x64 S750000x1 S750000x64 where
  updateWindowDims := [1]
  insertedWindowDims := [0]
  scatterDimsToOperandDims := [0]
  indexVectorDim := 1
  wf := scatter_S150000x64_S750000x1_S750000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S150000x128 : Shape := ⟨2, ![150000, 128]⟩
abbrev S2x600000 : Shape := ⟨2, ![2, 600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S150000 : Shape := ⟨1, ![150000]⟩
abbrev S1x600000 : Shape := ⟨2, ![1, 600000]⟩
abbrev S600000 : Shape := ⟨1, ![600000]⟩
abbrev S750000 : Shape := ⟨1, ![750000]⟩
abbrev S_ : Shape := ⟨0, ![]⟩
abbrev S750000x1 : Shape := ⟨2, ![750000, 1]⟩
abbrev S128x64 : Shape := ⟨2, ![128, 64]⟩
abbrev S150000x64 : Shape := ⟨2, ![150000, 64]⟩
abbrev S750000x64 : Shape := ⟨2, ![750000, 64]⟩
abbrev S64x1 : Shape := ⟨2, ![64, 1]⟩
abbrev S150000x1 : Shape := ⟨2, ![150000, 1]⟩
abbrev S1x1 : Shape := ⟨2, ![1, 1]⟩
abbrev S10000x15 : Shape := ⟨2, ![10000, 15]⟩
abbrev S10000x12 : Shape := ⟨2, ![10000, 12]⟩
abbrev S120000 : Shape := ⟨1, ![120000]⟩

abbrev nBuf : Space → Nat
  | .hbm => 104
  | .vmem => 0
  | .smem => 0
  | _ => 0

abbrev bufTy : (tb : Table) → Fin (tcTables nBuf tb) → BufTy
  | .hbm, ⟨0, _⟩ => ⟨S150000x128, .f32⟩
  | .hbm, ⟨1, _⟩ => ⟨S2x600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S150000, .i32⟩
  | .hbm, ⟨9, _⟩ => ⟨S1x600000, .i32⟩
  | .hbm, ⟨10, _⟩ => ⟨S600000, .i32⟩
  | .hbm, ⟨11, _⟩ => ⟨S750000, .i32⟩
  | .hbm, ⟨12, _⟩ => ⟨S1x600000, .i32⟩
  | .hbm, ⟨13, _⟩ => ⟨S600000, .i32⟩
  | .hbm, ⟨14, _⟩ => ⟨S750000, .i32⟩
  | .hbm, ⟨15, _⟩ => ⟨S_, .f32⟩
  | .hbm, ⟨16, _⟩ => ⟨S750000, .f32⟩
  | .hbm, ⟨17, _⟩ => ⟨S_, .f32⟩
  | .hbm, ⟨18, _⟩ => ⟨S150000, .f32⟩
  | .hbm, ⟨19, _⟩ => ⟨S750000x1, .i32⟩
  | .hbm, ⟨20, _⟩ => ⟨S150000, .f32⟩
  | .hbm, ⟨21, _⟩ => ⟨S_, .f32⟩
  | .hbm, ⟨22, _⟩ => ⟨S150000, .f32⟩
  | .hbm, ⟨23, _⟩ => ⟨S150000, .i1⟩
  | .hbm, ⟨24, _⟩ => ⟨S150000, .f32⟩
  | .hbm, ⟨25, _⟩ => ⟨S_, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S_, .i32⟩
  | .hbm, ⟨30, _⟩ => ⟨S750000, .i32⟩
  | .hbm, ⟨31, _⟩ => ⟨S750000, .i1⟩
  | .hbm, ⟨32, _⟩ => ⟨S_, .i32⟩
  | .hbm, ⟨33, _⟩ => ⟨S750000, .i32⟩
  | .hbm, ⟨34, _⟩ => ⟨S750000, .i32⟩
  | .hbm, ⟨35, _⟩ => ⟨S750000, .i32⟩
  | .hbm, ⟨36, _⟩ => ⟨S750000x1, .i32⟩
  | .hbm, ⟨37, _⟩ => ⟨S750000, .f32⟩
  | .hbm, ⟨38, _⟩ => ⟨S_, .i32⟩
  | .hbm, ⟨39, _⟩ => ⟨S750000, .i32⟩
  | .hbm, ⟨40, _⟩ => ⟨S750000, .i1⟩
  | .hbm, ⟨41, _⟩ => ⟨S_, .i32⟩
  | .hbm, ⟨42, _⟩ => ⟨S750000, .i32⟩
  | .hbm, ⟨43, _⟩ => ⟨S750000, .i32⟩
  | .hbm, ⟨44, _⟩ => ⟨S750000, .i32⟩
  | .hbm, ⟨45, _⟩ => ⟨S750000x1, .i32⟩
  | .hbm, ⟨46, _⟩ => ⟨S750000, .f32⟩
  | .hbm, ⟨47, _⟩ => ⟨S750000, .f32⟩
  | .hbm, ⟨48, _⟩ => ⟨S128x64, .f32⟩
  | .hbm, ⟨49, _⟩ => ⟨S150000x64, .f32⟩
  | .hbm, ⟨50, _⟩ => ⟨S_, .i32⟩
  | .hbm, ⟨51, _⟩ => ⟨S750000, .i32⟩
  | .hbm, ⟨52, _⟩ => ⟨S750000, .i1⟩
  | .hbm, ⟨53, _⟩ => ⟨S_, .i32⟩
  | .hbm, ⟨54, _⟩ => ⟨S750000, .i32⟩
  | .hbm, ⟨55, _⟩ => ⟨S750000, .i32⟩
  | .hbm, ⟨56, _⟩ => ⟨S750000, .i32⟩
  | .hbm, ⟨57, _⟩ => ⟨S750000x1, .i32⟩
  | .hbm, ⟨58, _⟩ => ⟨S750000x64, .f32⟩
  | .hbm, ⟨59, _⟩ => ⟨S750000x1, .f32⟩
  | .hbm, ⟨60, _⟩ => ⟨S750000x64, .f32⟩
  | .hbm, ⟨61, _⟩ => ⟨S750000x64, .f32⟩
  | .hbm, ⟨62, _⟩ => ⟨S_, .f32⟩
  | .hbm, ⟨63, _⟩ => ⟨S150000x64, .f32⟩
  | .hbm, ⟨64, _⟩ => ⟨S750000x1, .i32⟩
  | .hbm, ⟨65, _⟩ => ⟨S150000x64, .f32⟩
  | .hbm, ⟨66, _⟩ => ⟨S1x64, .f32⟩
  | .hbm, ⟨67, _⟩ => ⟨S150000x64, .f32⟩
  | .hbm, ⟨68, _⟩ => ⟨S150000x64, .f32⟩
  | .hbm, ⟨69, _⟩ => ⟨S_, .f32⟩
  | .hbm, ⟨70, _⟩ => ⟨S150000x64, .f32⟩
  | .hbm, ⟨71, _⟩ => ⟨S150000x64, .f32⟩
  | .hbm, ⟨72, _⟩ => ⟨S64x64, .f32⟩
  | .hbm, ⟨73, _⟩ => ⟨S150000x64, .f32⟩
  | .hbm, ⟨74, _⟩ => ⟨S_, .i32⟩
  | .hbm, ⟨75, _⟩ => ⟨S750000, .i32⟩
  | .hbm, ⟨76, _⟩ => ⟨S750000, .i1⟩
  | .hbm, ⟨77, _⟩ => ⟨S_, .i32⟩
  | .hbm, ⟨78, _⟩ => ⟨S750000, .i32⟩
  | .hbm, ⟨79, _⟩ => ⟨S750000, .i32⟩
  | .hbm, ⟨80, _⟩ => ⟨S750000, .i32⟩
  | .hbm, ⟨81, _⟩ => ⟨S750000x1, .i32⟩
  | .hbm, ⟨82, _⟩ => ⟨S750000x64, .f32⟩
  | .hbm, ⟨83, _⟩ => ⟨S750000x1, .f32⟩
  | .hbm, ⟨84, _⟩ => ⟨S750000x64, .f32⟩
  | .hbm, ⟨85, _⟩ => ⟨S750000x64, .f32⟩
  | .hbm, ⟨86, _⟩ => ⟨S_, .f32⟩
  | .hbm, ⟨87, _⟩ => ⟨S150000x64, .f32⟩
  | .hbm, ⟨88, _⟩ => ⟨S750000x1, .i32⟩
  | .hbm, ⟨89, _⟩ => ⟨S150000x64, .f32⟩
  | .hbm, ⟨90, _⟩ => ⟨S1x64, .f32⟩
  | .hbm, ⟨91, _⟩ => ⟨S150000x64, .f32⟩
  | .hbm, ⟨92, _⟩ => ⟨S150000x64, .f32⟩
  | .hbm, ⟨93, _⟩ => ⟨S_, .f32⟩
  | .hbm, ⟨94, _⟩ => ⟨S150000x64, .f32⟩
  | .hbm, ⟨95, _⟩ => ⟨S150000x64, .f32⟩
  | .hbm, ⟨96, _⟩ => ⟨S64x1, .f32⟩
  | .hbm, ⟨97, _⟩ => ⟨S150000x1, .f32⟩
  | .hbm, ⟨98, _⟩ => ⟨S1x1, .f32⟩
  | .hbm, ⟨99, _⟩ => ⟨S150000x1, .f32⟩
  | .hbm, ⟨100, _⟩ => ⟨S150000x1, .f32⟩
  | .hbm, ⟨101, _⟩ => ⟨S10000x15, .f32⟩
  | .hbm, ⟨102, _⟩ => ⟨S10000x12, .f32⟩
  | .hbm, ⟨103, _⟩ => ⟨S120000, .f32⟩
  | _, _ => ⟨S150000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S150000_S750000_d0 : Shape.Concatenates [S600000, S150000] S750000 0
  slices_S2x600000_S1x600000_1_0 : S2x600000.Slices ![1, 0] S1x600000
  bcast_S_S750000 : S_.BroadcastsInDim S750000 (![] : Fin 0 → Fin S750000.rank)
  bcast_S_S150000 : S_.BroadcastsInDim S150000 (![] : Fin 0 → Fin S150000.rank)
  bcast_S750000_S750000x1_0 : S750000.BroadcastsInDim S750000x1 (![0] : Fin 1 → Fin S750000x1.rank)
  transposes_S64x128_S128x64_1_0 : S64x128.Transposes [1, 0] S128x64
  bcast_S750000x1_S750000x64_0_1 : S750000x1.BroadcastsInDim S750000x64 (![0, 1] : Fin 2 → Fin S750000x64.rank)
  bcast_S_S150000x64 : S_.BroadcastsInDim S150000x64 (![] : Fin 0 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  shapeCasts_S150000x1_S10000x15 : S150000x1.ShapeCasts S10000x15
  slices_S10000x15_S10000x12_0_3 : S10000x15.Slices ![0, 3] S10000x12
  shapeCasts_S10000x12_S120000 : S10000x12.ShapeCasts S120000
  scatter_S150000_S750000x1_S750000_n_0_0_1_wf : ScatterDims.WF S150000 S750000x1 S750000 [] [0] [0] 1
  gather_S150000_S750000x1_S750000_n_0_n_n_0_1_1_wf : GatherDims.WF S150000 S750000x1 S750000 [] [0] [] [0] [] 1 ![1]
  dot_S150000x128_S128x64_S150000x64_1_0_0_1_n_n_wf : DotDims.WF S150000x128 S128x64 S150000x64 [1] [0] [0] [1] [] []
  gather_S150000x64_S750000x1_S750000x64_1_0_n_n_0_1_164_wf : GatherDims.WF S150000x64 S750000x1 S750000x64 [1] [0] [] [0] [] 1 ![1, 64]
  scatter_S150000x64_S750000x1_S750000x64_1_0_0_1_wf : ScatterDims.WF S150000x64 S750000x1 S750000x64 [1] [0] [0] 1
  dot_S150000x64_S64x64_S150000x64_1_0_0_1_n_n_wf : DotDims.WF S150000x64 S64x64 S150000x64 [1] [0] [0] [1] [] []
  dot_S150000x64_S64x1_S150000x1_1_0_0_1_n_n_wf : DotDims.WF S150000x64 S64x1 S150000x1 [1] [0] [0] [1] [] []

variable [Facts₀]

def scatter_S150000_S750000x1_S750000_n_0_0_1 : ScatterDims S150000 S750000x1 S750000 where
  updateWindowDims := []
  insertedWindowDims := [0]
  scatterDimsToOperandDims := [0]
  indexVectorDim := 1
  wf := scatter_S150000_S750000x1_S750000_n_0_0_1_wf
def gather_S150000_S750000x1_S750000_n_0_n_n_0_1_1 : GatherDims S150000 S750000x1 S750000 where
  offsetDims := []
  collapsedSliceDims := [0]
  operandBatchingDims := []
  startIndicesBatchingDims := []
  startIndexMap := [0]
  indexVectorDim := 1
  sliceSizes := ![1]
  wf := gather_S150000_S750000x1_S750000_n_0_n_n_0_1_1_wf
def dot_S150000x128_S128x64_S150000x64_1_0_0_1_n_n : DotDims S150000x128 S128x64 S150000x64 where
  lhsContracting := [1]
  rhsContracting := [0]
  lhsNonContracting := [0]
  rhsNonContracting := [1]
  lhsBatch := []
  rhsBatch := []
  wf := dot_S150000x128_S128x64_S150000x64_1_0_0_1_n_n_wf
def gather_S150000x64_S750000x1_S750000x64_1_0_n_n_0_1_164 : GatherDims S150000x64 S750000x1 S750000x64 where
  offsetDims := [1]
  collapsedSliceDims := [0]
  operandBatchingDims := []
  startIndicesBatchingDims := []
  startIndexMap := [0]
  indexVectorDim := 1
  sliceSizes := ![1, 64]
  wf := gather_S150000x64_S750000x1_S750000x64_1_0_n_n_0_1_164_wf
def scatter_S150000x64_S750000x1_S750000x64_1_0_0_1 : ScatterDims S150000x64 S750000x1 S750000x64 where
  updateWindowDims := [1]
  insertedWindowDims := [0]
  scatterDimsToOperandDims := [0]
  indexVectorDim := 1
  wf := scatter_S150000x64_S750000x1_S750000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def dot_S150000x64_S64x1_S150000x1_1_0_0_1_n_n : DotDims S150000x64 S64x1 S150000x1 where
  lhsContracting := [1]
  rhsContracting := [0]
  lhsNonContracting := [0]
  rhsNonContracting := [1]
  lhsBatch := []
  rhsBatch := []
  wf := dot_S150000x64_S64x1_S150000x1_1_0_0_1_n_n_wf

class Facts : Prop extends Facts₀ where

variable [Facts]
-- ==== Proof.KernelRun.lean ====
/-
  The kernel program's run, with its result named.

  The program is nine segments: stretches of host operations and three pallas_call regions. The buffer contents at each
  segment boundary are a fold from the launch memory (`W0` … `W9`): a stretch of host operations applies them, a region
  replaces its arrays by what its write-backs leave. Every weakly fair execution terminates, nothing faulting, in a state
  whose unscoped buffers hold the last boundary's contents `W9`. Read at the argument buffers that is the launch memory;
  read at the result buffer it is the program's result, which is what this module adds to the statement: the result
  array is `W9` at the result buffer.
-/
import proofs.«125318_j61512521613334_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting; the result buffer ends at the last
    boundary's contents and every argument array as launched. -/
theorem run_value : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.RefStages.lean ====
/-
  The reference program's result, cut into its stages.

  The reference is a two-layer graph convolution with a linear head. Its one result is a long composition of host
  operations of the eight argument arrays. It is named here stage by stage:
    • `rowIdx` / `colIdx` : the source and the target of every message — the two rows of the edge list, each followed by the
      node numbers 0 … 149999 (one self-loop per node);
    • `normOf row col`     : the weight of every message, d(row)^(-1/2) · d(col)^(-1/2), where d counts the messages that
      arrive at a node and a node that receives none gets the weight 0;
    • `gssOf xw row col nrm`: one round of message passing — the rows of `xw` gathered at the sources (a negative source
      counted from the end), each scaled by its message's weight, and summed into the rows named by the targets;
    • `dense1`, `dense2`, `dense3` : the three dense stages — the first projection; bias, positive part and the second
      projection; bias, positive part, the projection to one column and its bias;
    • `tail`               : the 150000 results laid out as 10000 rows of 15, the first 3 columns dropped, flattened.
  `out` composes them, and `res_eq` says that the result term the reference's run is stated with is `out` of the argument
  arrays: each definition is a piece of that term, so the two sides unfold to the same term.
-/
import proofs.«125318_j61512521613334_1_alg».proof.Proof.RefRun

set_option maxRecDepth 8192

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The source of every message: row 0 of the edge list, then every node once. -/
def rowIdx (a1 : (⟨S2x600000, .i32⟩ : BufTy).Contents (Elt F)) : (⟨S750000, .i32⟩ : BufTy).Contents (Elt F) :=
  (concatenate S750000 0 [⟨S600000, (shapeCast _ (extractStridedSlice S1x600000 ![0, 0] a1 slices_S2x600000_S1x600000_0_0) shapeCasts_S1x600000_S600000)⟩, ⟨S150000, (iotaInDim S150000 32 0)⟩] concatenates_S600000_S150000_S750000_d0)

/-- The target of every message: row 1 of the edge list, then every node once. -/
def colIdx (a1 : (⟨S2x600000, .i32⟩ : BufTy).Contents (Elt F)) : (⟨S750000, .i32⟩ : BufTy).Contents (Elt F) :=
  (concatenate S750000 0 [⟨S600000, (shapeCast _ (extractStridedSlice S1x600000 ![1, 0] a1 slices_S2x600000_S1x600000_1_0) shapeCasts_S1x600000_S600000)⟩, ⟨S150000, (iotaInDim S150000 32 0)⟩] concatenates_S600000_S150000_S750000_d0)

/-- The weight of every message: the inverse square root of the number of messages arriving at its source, times that
    of its target (0 for a node at which none arrives). -/
def normOf (row col : (⟨S750000, .i32⟩ : BufTy).Contents (Elt F)) : (⟨S750000, .f32⟩ : BufTy).Contents (Elt F) :=
  (mulf (Host.gather gather_S150000_S750000x1_S750000_n_0_n_n_0_1_1 (select (cmpf (F := F) .ogt (Host.scatterAdd scatter_S150000_S750000x1_S750000_n_0_0_1 (broadcastInDim S150000 ![] bcast_S_S150000 (constant S_ .f32 0x00000000#32)) (broadcastInDim S750000x1 ![0] bcast_S750000_S750000x1_0 col) (broadcastInDim S750000 ![] bcast_S_S750000 (constant S_ .f32 0x3F800000#32))) (broadcastInDim S150000 ![] bcast_S_S150000 (constant S_ .f32 0x00000000#32))) (Host.rsqrt (Host.scatterAdd scatter_S150000_S750000x1_S750000_n_0_0_1 (broadcastInDim S150000 ![] bcast_S_S150000 (constant S_ .f32 0x00000000#32)) (broadcastInDim S750000x1 ![0] bcast_S750000_S750000x1_0 col) (broadcastInDim S750000 ![] bcast_S_S750000 (constant S_ .f32 0x3F800000#32)))) (broadcastInDim S150000 ![] bcast_S_S150000 (id (constant S_ .f32 0x00000000#32)))) (broadcastInDim S750000x1 ![0] bcast_S750000_S750000x1_0 (select (cmpi .slt row (broadcastInDim S750000 ![] bcast_S_S750000 (constantI S_ 32 0#32))) (addi row (broadcastInDim S750000 ![] bcast_S_S750000 (constantI S_ 32 150000#32))) row))) (Host.gather gather_S150000_S750000x1_S750000_n_0_n_n_0_1_1 (select (cmpf (F := F) .ogt (Host.scatterAdd scatter_S150000_S750000x1_S750000_n_0_0_1 (broadcastInDim S150000 ![] bcast_S_S150000 (constant S_ .f32 0x00000000#32)) (broadcastInDim S750000x1 ![0] bcast_S750000_S750000x1_0 col) (broadcastInDim S750000 ![] bcast_S_S750000 (constant S_ .f32 0x3F800000#32))) (broadcastInDim S150000 ![] bcast_S_S150000 (constant S_ .f32 0x00000000#32))) (Host.rsqrt (Host.scatterAdd scatter_S150000_S750000x1_S750000_n_0_0_1 (broadcastInDim S150000 ![] bcast_S_S150000 (constant S_ .f32 0x00000000#32)) (broadcastInDim S750000x1 ![0] bcast_S750000_S750000x1_0 col) (broadcastInDim S750000 ![] bcast_S_S750000 (constant S_ .f32 0x3F800000#32)))) (broadcastInDim S150000 ![] bcast_S_S150000 (id (constant S_ .f32 0x00000000#32)))) (broadcastInDim S750000x1 ![0] bcast_S750000_S750000x1_0 (select (cmpi .slt col (broadcastInDim S750000 ![] bcast_S_S750000 (constantI S_ 32 0#32))) (addi col (broadcastInDim S750000 ![] bcast_S_S750000 (constantI S_ 32 150000#32))) col))))

/-- One round of message passing over node features `xw`: gather at the sources, scale by the weights, sum at the targets. -/
def gssOf (xw : (⟨S150000x64, .f32⟩ : BufTy).Contents (Elt F)) (row col : (⟨S750000, .i32⟩ : BufTy).Contents (Elt F)) (nrm : (⟨S750000, .f32⟩ : BufTy).Contents (Elt F)) :
    (⟨S150000x64, .f32⟩ : BufTy).Contents (Elt F) :=
  (Host.scatterAdd scatter_S150000x64_S750000x1_S750000x64_1_0_0_1 (broadcastInDim S150000x64 ![] bcast_S_S150000x64 (constant S_ .f32 0x00000000#32)) (broadcastInDim S750000x1 ![0] bcast_S750000_S750000x1_0 col) (mulf (Host.gather gather_S150000x64_S750000x1_S750000x64_1_0_n_n_0_1_164 xw (broadcastInDim S750000x1 ![0] bcast_S750000_S750000x1_0 (select (cmpi .slt row (broadcastInDim S750000 ![] bcast_S_S750000 (constantI S_ 32 0#32))) (addi row (broadcastInDim S750000 ![] bcast_S_S750000 (constantI S_ 32 150000#32))) row))) (broadcastInDim S750000x64 ![0, 1] bcast_S750000x1_S750000x64_0_1 (broadcastInDim S750000x1 ![0] bcast_S750000_S750000x1_0 nrm))))

/-- The first projection, `a0 · a2ᵀ`. -/
def dense1 (a0 : (⟨S150000x128, .f32⟩ : BufTy).Contents (Elt F)) (a2 : (⟨S64x128, .f32⟩ : BufTy).Contents (Elt F)) : (⟨S150000x64, .f32⟩ : BufTy).Contents (Elt F) :=
  (Host.dotGeneral dot_S150000x128_S128x64_S150000x64_1_0_0_1_n_n none a0 (transpose S128x64 [1, 0] a2 transposes_S64x128_S128x64_1_0))

/-- Bias, positive part, second projection: `max (x + a3) 0 · a4ᵀ`. -/
def dense2 (x : (⟨S150000x64, .f32⟩ : BufTy).Contents (Elt F)) (a3 : (⟨S64, .f32⟩ : BufTy).Contents (Elt F)) (a4 : (⟨S64x64, .f32⟩ : BufTy).Contents (Elt F)) : (⟨S150000x64, .f32⟩ : BufTy).Contents (Elt F) :=
  (Host.dotGeneral dot_S150000x64_S64x64_S150000x64_1_0_0_1_n_n none (maximumf (addf x (broadcastInDim S150000x64 ![0, 1] bcast_S1x64_S150000x64_0_1 (broadcastInDim S1x64 ![1] bcast_S64_S1x64_1 a3))) (broadcastInDim S150000x64 ![] bcast_S_S150000x64 (constant S_ .f32 0x00000000#32))) (transpose S64x64 [1, 0] a4 transposes_S64x64_S64x64_1_0))

/-- Bias, positive part, the projection to one column and its bias: `max (x + a5) 0 · a6ᵀ + a7`. -/
def dense3 (x : (⟨S150000x64, .f32⟩ : BufTy).Contents (Elt F)) (a5 : (⟨S64, .f32⟩ : BufTy).Contents (Elt F)) (a6 : (⟨S1x64, .f32⟩ : BufTy).Contents (Elt F)) (a7 : (⟨S1, .f32⟩ : BufTy).Contents (Elt F)) :
    (⟨S150000x1, .f32⟩ : BufTy).Contents (Elt F) :=
  (addf (Host.dotGeneral dot_S150000x64_S64x1_S150000x1_1_0_0_1_n_n none (maximumf (addf x (broadcastInDim S150000x64 ![0, 1] bcast_S1x64_S150000x64_0_1 (broadcastInDim S1x64 ![1] bcast_S64_S1x64_1 a5))) (broadcastInDim S150000x64 ![] bcast_S_S150000x64 (constant S_ .f32 0x00000000#32))) (transpose S64x1 [1, 0] a6 transposes_S1x64_S64x1_1_0)) (broadcastInDim S150000x1 ![0, 1] bcast_S1x1_S150000x1_0_1 (broadcastInDim S1x1 ![1] bcast_S1_S1x1_1 a7)))

/-- 10000 rows of 15, columns 3 … 14 kept, flattened. -/
def tail (y : (⟨S150000x1, .f32⟩ : BufTy).Contents (Elt F)) : (⟨S120000, .f32⟩ : BufTy).Contents (Elt F) :=
  shapeCast _ (extractStridedSlice S10000x12 ![0, 3] (shapeCast _ y shapeCasts_S150000x1_S10000x15) slices_S10000x15_S10000x12_0_3) shapeCasts_S10000x12_S120000

/-- The reference's result as a function of its eight argument arrays. -/
def out (a0 : (⟨S150000x128, .f32⟩ : BufTy).Contents (Elt F)) (a1 : (⟨S2x600000, .i32⟩ : BufTy).Contents (Elt F)) (a2 : (⟨S64x128, .f32⟩ : BufTy).Contents (Elt F)) (a3 : (⟨S64, .f32⟩ : BufTy).Contents (Elt F))
    (a4 : (⟨S64x64, .f32⟩ : BufTy).Contents (Elt F)) (a5 : (⟨S64, .f32⟩ : BufTy).Contents (Elt F)) (a6 : (⟨S1x64, .f32⟩ : BufTy).Contents (Elt F)) (a7 : (⟨S1, .f32⟩ : BufTy).Contents (Elt F)) : (⟨S120000, .f32⟩ : BufTy).Contents (Elt F) :=
  tail (dense3 (gssOf (dense2 (gssOf (dense1 a0 a2) (rowIdx (F := F) a1) (colIdx (F := F) a1) (normOf (rowIdx (F := F) a1) (colIdx (F := F) a1))) a3 a4)
    (rowIdx (F := F) a1) (colIdx (F := F) a1) (normOf (rowIdx (F := F) a1) (colIdx (F := F) a1))) a5 a6 a7)

/-- The run's result term is `out` of the argument arrays: the stages are its pieces. -/
theorem res_eq (m : (ℓ : Loc nD τ sig) → Buf (Elt F) ℓ) (c : Dev nD) :
    Cert.ReferenceIdeal.ValueP.res_main_v75 (F := F) m c
      = out (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v75 out tail dense3 dense2 dense1 gssOf normOf rowIdx colIdx
  rfl

end Cert.ReferenceIdeal.Stages

end
-- ==== Proof.KHostNorm.lean ====
/-
  The kernel program's host operations before its first region: the message lists and the message weights.

  From the edge list alone they compute the source and the target of every message (the two rows of the edge list, each
  followed by every node once) and the weight of every message, d(source)^(-1/2) · d(target)^(-1/2). They are the
  reference's own operations, so at the first region's entry the three buffers hold the reference's stage functions of
  the kernel's edge list, and no argument array has been written.
-/
import proofs.«125318_j61512521613334_1_alg».proof.Proof.Gen.KernelIdeal.Frame
import proofs.«125318_j61512521613334_1_alg».proof.Proof.RefStages
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- At the first region's entry the source list is the reference's, of the kernel's edge list. -/
theorem row_eq (c : Dev nD) :
    W3 m ρ c (Proc.devRef .tc main_v3) = Cert.ReferenceIdeal.Stages.rowIdx (F := F) (m ((c : Thread nD τ).loc main_arg1)) := by
  show StableHlo.after hostOps0_2 (StableHlo.after hostOps0_1 (StableHlo.after hostOps0 (W0 m ρ c))) (Proc.devRef .tc main_v3) = _
  after_results_simp <;> (unfold Cert.ReferenceIdeal.Stages.rowIdx; rfl)

/-- At the first region's entry the target list is the reference's, of the kernel's edge list. -/
theorem col_eq (c : Dev nD) :
    W3 m ρ c (Proc.devRef .tc main_v6) = Cert.ReferenceIdeal.Stages.colIdx (F := F) (m ((c : Thread nD τ).loc main_arg1)) := by
  show StableHlo.after hostOps0_2 (StableHlo.after hostOps0_1 (StableHlo.after hostOps0 (W0 m ρ c))) (Proc.devRef .tc main_v6) = _
  after_results_simp <;> (unfold Cert.ReferenceIdeal.Stages.colIdx; rfl)

/-- At the first region's entry the message weights are the reference's, of those two lists. -/
theorem norm_eq (c : Dev nD) :
    W3 m ρ c (Proc.devRef .tc main_v29)
      = Cert.ReferenceIdeal.Stages.normOf (F := F) (Cert.ReferenceIdeal.Stages.rowIdx (F := F) (m ((c : Thread nD τ).loc main_arg1)))
          (Cert.ReferenceIdeal.Stages.colIdx (F := F) (m ((c : Thread nD τ).loc main_arg1))) := by
  show StableHlo.after hostOps0_2 (StableHlo.after hostOps0_1 (StableHlo.after hostOps0 (W0 m ρ c))) (Proc.devRef .tc main_v29) = _
  after_results_simp <;> (unfold Cert.ReferenceIdeal.Stages.normOf Cert.ReferenceIdeal.Stages.rowIdx Cert.ReferenceIdeal.Stages.colIdx; rfl)

/-- No operation before the first region writes argument 0. -/
theorem arg0_eq (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

/-- No operation before the first region writes argument 2. -/
theorem arg2_eq (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl

/-- No operation before the first region writes argument 3. -/
theorem arg3_eq (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

/-- No operation before the first region writes argument 4. -/
theorem arg4_eq (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

/-- No operation before the first region writes argument 5. -/
theorem arg5_eq (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-- No operation before the first region writes argument 6. -/
theorem arg6_eq (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

/-- No operation before the first region writes argument 7. -/
theorem arg7_eq (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl

end Cert.KernelIdeal.HostValue

end
-- ==== Proof.KHostLayer1.lean ====
/-
  The kernel program's host operations between its first and second regions: the first round of message passing over
  the first region's projection, and the first bias laid out as a row for the second region to read. The message lists,
  the weights and the later arguments pass through unwritten.
-/
import proofs.«125318_j61512521613334_1_alg».proof.Proof.Gen.KernelIdeal.Frame
import proofs.«125318_j61512521613334_1_alg».proof.Proof.RefStages
import Idealize.ShloMosaic.Lib.StableHlo.Run

set_option maxRecDepth 16384

noncomputable section

namespace Cert.KernelIdeal.HostValue.Layer1

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- One round of message passing: the stretch gathers the rows of the region's output at the sources, scales them by
    the weights and sums them at the targets — the reference's round, of what the boundary before it holds. -/
theorem messages_eq (c : Dev nD) :
    W5 m ρ c (Proc.devRef .tc main_v43)
      = Cert.ReferenceIdeal.Stages.gssOf (F := F) (W4 m ρ c (Proc.devRef .tc main_v30)) (W4 m ρ c (Proc.devRef .tc main_v3))
          (W4 m ρ c (Proc.devRef .tc main_v6)) (W4 m ρ c (Proc.devRef .tc main_v29)) := by
  show StableHlo.after hostOps1 (W4 m ρ c) (Proc.devRef .tc main_v43) = _
  after_results_simp <;> (unfold Cert.ReferenceIdeal.Stages.gssOf; rfl)

/-- The first bias, a list of 64, laid out as one row of 64. -/
theorem main_v44_eq (c : Dev nD) :
    W5 m ρ c (Proc.devRef .tc main_v44) = shapeCast S1x64 (W4 m ρ c (Proc.devRef .tc main_arg3)) shapeCasts_S64_S1x64 := by
  show StableHlo.after hostOps1 (W4 m ρ c) (Proc.devRef .tc main_v44) = _
  after_results_simp <;> rfl

/-- The stretch does not write `main_arg4`. -/
theorem main_arg4_kept (c : Dev nD) : W5 m ρ c (Proc.devRef .tc main_arg4) = W4 m ρ c (Proc.devRef .tc main_arg4) := by
  show StableHlo.after hostOps1 (W4 m ρ c) (Proc.devRef .tc main_arg4) = _
  after_results_simp <;> rfl

/-- The stretch does not write `main_v3`. -/
theorem main_v3_kept (c : Dev nD) : W5 m ρ c (Proc.devRef .tc main_v3) = W4 m ρ c (Proc.devRef .tc main_v3) := by
  show StableHlo.after hostOps1 (W4 m ρ c) (Proc.devRef .tc main_v3) = _
  after_results_simp <;> rfl

/-- The stretch does not write `main_v6`. -/
theorem main_v6_kept (c : Dev nD) : W5 m ρ c (Proc.devRef .tc main_v6) = W4 m ρ c (Proc.devRef .tc main_v6) := by
  show StableHlo.after hostOps1 (W4 m ρ c) (Proc.devRef .tc main_v6) = _
  after_results_simp <;> rfl

/-- The stretch does not write `main_v29`. -/
theorem main_v29_kept (c : Dev nD) : W5 m ρ c (Proc.devRef .tc main_v29) = W4 m ρ c (Proc.devRef .tc main_v29) := by
  show StableHlo.after hostOps1 (W4 m ρ c) (Proc.devRef .tc main_v29) = _
  after_results_simp <;> rfl

/-- The stretch does not write `main_arg5`. -/
theorem main_arg5_kept (c : Dev nD) : W5 m ρ c (Proc.devRef .tc main_arg5) = W4 m ρ c (Proc.devRef .tc main_arg5) := by
  show StableHlo.after hostOps1 (W4 m ρ c) (Proc.devRef .tc main_arg5) = _
  after_results_simp <;> rfl

/-- The stretch does not write `main_arg6`. -/
theorem main_arg6_kept (c : Dev nD) : W5 m ρ c (Proc.devRef .tc main_arg6) = W4 m ρ c (Proc.devRef .tc main_arg6) := by
  show StableHlo.after hostOps1 (W4 m ρ c) (Proc.devRef .tc main_arg6) = _
  after_results_simp <;> rfl

/-- The stretch does not write `main_arg7`. -/
theorem main_arg7_kept (c : Dev nD) : W5 m ρ c (Proc.devRef .tc main_arg7) = W4 m ρ c (Proc.devRef .tc main_arg7) := by
  show StableHlo.after hostOps1 (W4 m ρ c) (Proc.devRef .tc main_arg7) = _
  after_results_simp <;> rfl

end Cert.KernelIdeal.HostValue.Layer1

end
-- ==== Proof.KHostLayer2.lean ====
/-
  The kernel program's host operations between its second and third regions: the second round of message passing over
  the second region's projection, and the second bias and the head's bias laid out for the third region to read.
-/
import proofs.«125318_j61512521613334_1_alg».proof.Proof.Gen.KernelIdeal.Frame
import proofs.«125318_j61512521613334_1_alg».proof.Proof.RefStages
import Idealize.ShloMosaic.Lib.StableHlo.Run

set_option maxRecDepth 16384

noncomputable section

namespace Cert.KernelIdeal.HostValue.Layer2

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- One round of message passing: the stretch gathers the rows of the region's output at the sources, scales them by
    the weights and sums them at the targets — the reference's round, of what the boundary before it holds. -/
theorem messages_eq (c : Dev nD) :
    W7 m ρ c (Proc.devRef .tc main_v58)
      = Cert.ReferenceIdeal.Stages.gssOf (F := F) (W6 m ρ c (Proc.devRef .tc main_v45)) (W6 m ρ c (Proc.devRef .tc main_v3))
          (W6 m ρ c (Proc.devRef .tc main_v6)) (W6 m ρ c (Proc.devRef .tc main_v29)) := by
  show StableHlo.after hostOps2 (W6 m ρ c) (Proc.devRef .tc main_v58) = _
  after_results_simp <;> (unfold Cert.ReferenceIdeal.Stages.gssOf; rfl)

/-- The second bias, a list of 64, laid out as one row of 64. -/
theorem main_v59_eq (c : Dev nD) :
    W7 m ρ c (Proc.devRef .tc main_v59) = shapeCast S1x64 (W6 m ρ c (Proc.devRef .tc main_arg5)) shapeCasts_S64_S1x64 := by
  show StableHlo.after hostOps2 (W6 m ρ c) (Proc.devRef .tc main_v59) = _
  after_results_simp <;> rfl

/-- The head's bias, a list of one, laid out as a 1 by 1 array. -/
theorem main_v60_eq (c : Dev nD) :
    W7 m ρ c (Proc.devRef .tc main_v60) = shapeCast S1x1 (W6 m ρ c (Proc.devRef .tc main_arg7)) shapeCasts_S1_S1x1 := by
  show StableHlo.after hostOps2 (W6 m ρ c) (Proc.devRef .tc main_v60) = _
  after_results_simp <;> rfl

/-- The stretch does not write `main_arg6`. -/
theorem main_arg6_kept (c : Dev nD) : W7 m ρ c (Proc.devRef .tc main_arg6) = W6 m ρ c (Proc.devRef .tc main_arg6) := by
  show StableHlo.after hostOps2 (W6 m ρ c) (Proc.devRef .tc main_arg6) = _
  after_results_simp <;> rfl

end Cert.KernelIdeal.HostValue.Layer2

end
-- ==== Proof.KHostTail.lean ====
/-
  The kernel program's last stretch of host operations: the head's 150000 results laid out as 10000 rows of 15, the
  first 3 columns dropped, flattened. It is the reference's own tail applied to what the third region leaves in its
  output array.
-/
import proofs.«125318_j61512521613334_1_alg».proof.Proof.Gen.KernelIdeal.Frame
import proofs.«125318_j61512521613334_1_alg».proof.Proof.RefStages
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The result buffer after the last stretch is the tail of the third region's output array. -/
theorem result_eq_tail (c : Dev nD) :
    W9 m ρ c (Proc.devRef .tc main_v64)
      = Cert.ReferenceIdeal.Stages.tail (F := F) (W8 m ρ c (Proc.devRef .tc main_v61)) := by
  show StableHlo.after hostOps3 (W8 m ρ c) (Proc.devRef .tc main_v64) = _
  after_results
  rfl

end Cert.KernelIdeal.HostValue

end
-- ==== Proof.Spec.lean ====
/-
  The three dense stages of a two-layer graph convolution with a linear head, as functions of whole arrays of
  extended reals, entry by entry.

  A node array `x` has one row per node. A weight array `w` has one row per OUTPUT feature, so a projection
  `x · wᵀ` has, at node `p` and feature `q`, the inner product of row `p` of `x` with row `q` of `w`.
    • `proj x w`          : the first projection, `x · wᵀ`, 128 input features to 64.
    • `layer x b w`       : the bias `b` added to every row of `x`, the positive part taken entry by entry, then
                             projected by `wᵀ`, 64 features to 64.
    • `head x b w b3`     : the same epilogue, projected by the single row `w` to one column, plus the scalar `b3`.
  The positive part is the maximum with the word of the float zero, kept as a word: it is the same word wherever
  it occurs, so it is never evaluated.
-/
import Idealize.ShloMosaic.PureOps.Ideal
import Idealize.ShloMosaic.Lib.ValueIdx

noncomputable section

open scoped BigOperators

namespace Cert.Gcn

open Idealize.ShloMosaic Idealize.ShloMosaic.ValueIdx

/-- The float zero, as the word both programs write. -/
abbrev zeroE : EReal := Ideal.ofBits .f32 0x00000000#32

/-- Entry `(p, q)` of `x · wᵀ`: row `p` of `x` against row `q` of `w`. -/
def projAt (x : (⟨2, ![150000, 128]⟩ : Shape).Idx → EReal) (w : (⟨2, ![64, 128]⟩ : Shape).Idx → EReal)
    (p : Fin 150000) (q : Fin 64) : EReal :=
  ∑ d : Fin 128, x (ix2 p d) * w (ix2 q d)

/-- `x · wᵀ` as an array. -/
def proj (x : (⟨2, ![150000, 128]⟩ : Shape).Idx → EReal) (w : (⟨2, ![64, 128]⟩ : Shape).Idx → EReal) :
    (⟨2, ![150000, 64]⟩ : Shape).Idx → EReal := fun i => projAt x w (i 0) (i 1)

/-- Entry `(p, q)` of `max (x + b) 0 · wᵀ`: the bias is added along a row, the positive part taken, and the row
    set against row `q` of `w`. -/
def layerAt (x : (⟨2, ![150000, 64]⟩ : Shape).Idx → EReal) (b : Fin 64 → EReal)
    (w : (⟨2, ![64, 64]⟩ : Shape).Idx → EReal) (p : Fin 150000) (q : Fin 64) : EReal :=
  ∑ d : Fin 64, max (x (ix2 p d) + b d) zeroE * w (ix2 q d)

/-- `max (x + b) 0 · wᵀ` as an array. -/
def layer (x : (⟨2, ![150000, 64]⟩ : Shape).Idx → EReal) (b : Fin 64 → EReal)
    (w : (⟨2, ![64, 64]⟩ : Shape).Idx → EReal) : (⟨2, ![150000, 64]⟩ : Shape).Idx → EReal :=
  fun i => layerAt x b w (i 0) (i 1)

/-- Entry `p` of the head: `max (x + b) 0` against the single row of `w`, plus `b3`. -/
def headAt (x : (⟨2, ![150000, 64]⟩ : Shape).Idx → EReal) (b : Fin 64 → EReal)
    (w : (⟨2, ![1, 64]⟩ : Shape).Idx → EReal) (b3 : EReal) (p : Fin 150000) : EReal :=
  (∑ d : Fin 64, max (x (ix2 p d) + b d) zeroE * w (ix2 0 d)) + b3

/-- The head as a one-column array. -/
def head (x : (⟨2, ![150000, 64]⟩ : Shape).Idx → EReal) (b : Fin 64 → EReal)
    (w : (⟨2, ![1, 64]⟩ : Shape).Idx → EReal) (b3 : EReal) : (⟨2, ![150000, 1]⟩ : Shape).Idx → EReal :=
  fun i => headAt x b w b3 (i 0)

end Cert.Gcn

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.Region0Value.lean ====
/-
  The first projection, read off the buffer contents at its entry.

  The region walks the 150000 rows of the node array in 15 tiles of 10000 rows. At tile \`t\` it loads rows
  \`10000 t … 10000 t + 9999\` of the node array and the whole weight array, multiplies the tile by the transpose of
  the weights, and writes the 10000 × 64 product back over rows \`10000 t … 10000 t + 9999\` of the result. Over
  the extended reals the narrowing of the operands is the identity and the product is exact, so entry \`(p, q)\` of
  the tile's product is the inner product of row \`p\` of the tile with row \`q\` of the weights: the tile is the
  restriction of the whole-array projection to its rows, and the 15 tiles cover every row once.
-/
import proofs.«125318_j61512521613334_1_alg».proof.Proof.Gen.KernelIdeal.Frame
import proofs.«125318_j61512521613334_1_alg».proof.Proof.Spec
import proofs.«125318_j61512521613334_1_alg».proof.Proof.LibMatmulRead
import Idealize.ShloMosaic.Lib.Pipeline.Value
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

namespace Proj

/-- The offsets of a load or store of a whole tile are zero on both axes. -/
theorem zero_offsets : (![0, 0] : Fin 2 → Nat) = fun _ => 0 := funext fun a => by fin_cases a <;> rfl

/-! ## One tile's product, entry by entry -/

/-- Entry \`(p, q)\` of the tile's product: row \`p\` of the loaded tile against row \`q\` of the loaded weights. -/
theorem tile_product_apply (x : Vec Ideal S10000x128 .f32) (w : Vec Ideal S64x128 .f32) (p : Fin 10000) (q : Fin 64) :
    k0_pay1 x w (ValueIdx.ix2 p q) = ∑ d : Fin 128, x (ValueIdx.ix2 p d) * w (ValueIdx.ix2 q d) := by
  unfold k0_pay1
  exact ValueIdx.matmul_transpose_ix2_apply dot_S10000x128_S128x64_S10000x64_1_0_0_1_n_n rfl rfl rfl rfl rfl rfl none
    (truncf .bf16 x bitsLt_bf16_f32) (truncf .bf16 w bitsLt_bf16_f32) transposes_S64x128_p1_0_S128x64 p q

/-! ## Where tile \`t\` sits in the arrays -/

/-- The block indices at tile \`t\`: the node tile and the result tile are both the \`t\`-th along the rows and the
    only one along the columns; the weights are one block. -/
theorem tile_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row tile is some point's. -/
theorem tile_onto : ∀ r : Fin 15, ∃ t : Fin cfg0.N, t.val = r.val :=
  (by decide +kernel : ∀ r : Fin 15, ∃ t : Fin grid0.N, t.val = r.val)

/-- Entry \`(p, d)\` of the node tile at point \`t\` is entry \`(10000 t + p, d)\` of the node array. -/
theorem node_tile_apply (c : Dev nD) (t : Fin cfg0.N) (p : Fin 10000) (d : Fin 128) (i : S150000x128.Idx)
    (h0 : (i 0).val = t.val * 10000 + p.val) (h1 : (i 1).val = d.val) :
    iblk0 V c 0 t (ValueIdx.ix2 p d) = V c main_arg0 i := by
  obtain ⟨e0, e1, -, -, -, -⟩ := tile_indices t
  show V c main_arg0 (((cfg0.win 0).blk t).view.emb (ValueIdx.ix2 p d)) = V c main_arg0 i
  refine congrArg _ (funext fun a => Fin.ext ?_)
  match a with
  | ⟨0, _⟩ => show win0_0.index t (0 : Fin 2) * 10000 + 1 * p.val = (i 0).val; omega
  | ⟨1, _⟩ => show win0_0.index t (1 : Fin 2) * 128 + 1 * d.val = (i 1).val; omega

/-- The weight block at any point is the weight array. -/
theorem weight_block_apply (c : Dev nD) (t : Fin cfg0.N) (q : Fin 64) (d : Fin 128) (i : S64x128.Idx)
    (h0 : (i 0).val = q.val) (h1 : (i 1).val = d.val) :
    iblk0 V c 1 t (ValueIdx.ix2 q d) = V c main_arg2 i := by
  obtain ⟨-, -, e2, e3, -, -⟩ := tile_indices t
  show V c main_arg2 (((cfg0.win 1).blk t).view.emb (ValueIdx.ix2 q d)) = V c main_arg2 i
  refine congrArg _ (funext fun a => Fin.ext ?_)
  match a with
  | ⟨0, _⟩ => show win0_1.index t (0 : Fin 2) * 64 + 1 * q.val = (i 0).val; omega
  | ⟨1, _⟩ => show win0_1.index t (1 : Fin 2) * 128 + 1 * d.val = (i 1).val; omega

/-- Entry \`(p, q)\` of the result tile at point \`t\` sits at row \`10000 t + p\`, -/
theorem result_tile_row (t : Fin cfg0.N) (p : Fin 10000) (q : Fin 64) :
    ((((cfg0.win 2).blk t).view.emb (ValueIdx.ix2 p q)) 0).val = t.val * 10000 + p.val := by
  obtain ⟨-, -, -, -, e4, -⟩ := tile_indices t
  show win0_2.index t (0 : Fin 2) * 10000 + 1 * p.val = t.val * 10000 + p.val
  omega

/-- and column \`q\`, of the result array. -/
theorem result_tile_col (t : Fin cfg0.N) (p : Fin 10000) (q : Fin 64) :
    ((((cfg0.win 2).blk t).view.emb (ValueIdx.ix2 p q)) 1).val = q.val := by
  obtain ⟨-, -, -, -, -, e5⟩ := tile_indices t
  show win0_2.index t (1 : Fin 2) * 64 + 1 * q.val = q.val
  omega

/-! ## What each point writes back -/

/-- What point \`t\` writes back is tile \`t\` of the whole-array projection of the arrays as the region finds them. -/
theorem written_tile_eq (c : Dev nD) (t : Fin cfg0.N) :
    (dat0 (F := Ideal) V c).flushed 2 t
      = ((cfg0.win 2).blk t).view.read (Elt Ideal) (Cert.Gcn.proj (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S64x128) zero_offsets]
  funext j
  obtain ⟨p, q, rfl⟩ : ∃ (p : Fin 10000) (q : Fin 64), j = ValueIdx.ix2 p q := ⟨j 0, j 1, ValueIdx.eq_ix2 j⟩
  refine (tile_product_apply (iblk0 V c 0 t) (iblk0 V c 1 t) p q).trans ?_
  show _ = Cert.Gcn.projAt (V c main_arg0) (V c main_arg2) ((((cfg0.win 2).blk t).view.emb (ValueIdx.ix2 p q)) 0)
      ((((cfg0.win 2).blk t).view.emb (ValueIdx.ix2 p q)) 1)
  unfold Cert.Gcn.projAt
  refine Finset.sum_congr rfl fun d _ => ?_
  refine congrArg₂ (· * ·) ?_ ?_
  · exact node_tile_apply V c t p d _ (result_tile_row t p q) rfl
  · exact weight_block_apply V c t q d _ (result_tile_col t p q) rfl

/-! ## The tiles cover the result -/

/-- An index of the result array is in point \`t\`'s tile iff each coordinate is in the tile's range on its axis. -/
theorem mem_result_tile (t : Fin cfg0.N) (i : S150000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row \`r\` of the result is in tile \`r / 10000\`, which is written back: every index is covered. -/
theorem result_covered (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  obtain ⟨t, ht⟩ := tile_onto ⟨(i 0).val / 10000, by omega⟩
  have ht' : t.val = (i 0).val / 10000 := ht
  obtain ⟨-, -, -, -, e4, e5⟩ := tile_indices t
  refine ⟨t, flush0_2 t, ?_⟩
  rw [mem_result_tile]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

end Proj

/-! ## The result array -/

/-- After the region the result array is the projection of the node array by the weights, both as the region
    finds them. -/
theorem final0 (c : Dev nD) :
    (dat0 (F := Ideal) V c).arrAt 2 cfg0.N = Cert.Gcn.proj (V c main_arg0) (V c main_arg2) :=
  (dat0 (F := Ideal) V c).arrAt_eq_of_cover 2 (Cert.Gcn.proj (V c main_arg0) (V c main_arg2))
    (fun t _ => Proj.written_tile_eq V c t) Proj.result_covered

end Cert.KernelIdeal.RegionValue

end
-- ==== Proof.Region1Value.lean ====
/-
  The second dense stage as one function of whole arrays.

  The stage reads a node array `x` of 150000 rows and 64 features in row tiles of 10000 rows, a bias row `b` and a
  weight array `w` whole, and writes a node array of the same size tile by tile. At one tile the body adds the bias
  row to every row of the tile, takes the positive part entry by entry, and sets each row against each row of `w`:
  entry `(p, q)` of the tile's result is the inner product of the corrected row `p` of the tile with row `q` of
  `w`. Row `p` of tile `t` is row `10000 t + p` of the array, so the tile's result is rows `10000 t … 10000 t + 9999`
  of `Cert.Gcn.layer x b w`; the fifteen tiles cover the 150000 rows (row `r` lies in tile `r / 10000`), so the array
  the stage leaves is `Cert.Gcn.layer x b w`.
-/
import proofs.«125318_j61512521613334_1_alg».proof.Proof.Gen.KernelIdeal.Frame
import proofs.«125318_j61512521613334_1_alg».proof.Proof.Spec
import proofs.«125318_j61512521613334_1_alg».proof.Proof.LibMatmulRead
import Idealize.ShloMosaic.Lib.Pipeline.Value
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace Layer

/-! ## The tile's result, entry by entry -/

/-- Entry `(p, q)` of what the body computes from a tile `x`, the bias row `b` and the weights `w`: the inner product
    of `max (x p · + b) 0` with row `q` of `w`. The two roundings on the way into the product are the identity on
    extended reals, and so are the two reshapes to the same shape. -/
theorem tile_apply (x : Vec Ideal S10000x64 .f32) (b : Vec Ideal S1x64 .f32) (w : Vec Ideal S64x64 .f32)
    (p : Fin 10000) (q : Fin 64) :
    k1_pay1 x b w (ValueIdx.ix2 p q)
      = ∑ d : Fin 64, max (x (ValueIdx.ix2 p d) + b (ValueIdx.ix2 (0 : Fin 1) d)) Cert.Gcn.zeroE * w (ValueIdx.ix2 q d) := by
  unfold k1_pay1
  refine (ValueIdx.matmul_transpose_ix2_apply _ rfl rfl rfl rfl rfl rfl none _ _ _ p q).trans ?_
  refine Finset.sum_congr rfl fun d _ => ?_
  refine congrArg₂ (· * ·) ?_ rfl
  show max (shapeCast S10000x64 x shapeCasts_S10000x64_S10000x64 (ValueIdx.ix2 p d)
      + broadcastTo S10000x64 (shapeCast S1x64 b shapeCasts_S1x64_S1x64) broadcasts_S1x64_S10000x64 (ValueIdx.ix2 p d)) _ = _
  rw [shapeCast_self, shapeCast_self, ValueIdx.broadcastTo_1b_ab_apply]
  rfl

/-- The tile's result at `(p, q)` is `Cert.Gcn.layer` of the whole arrays at row `10000 r + p` and column `q`, when the
    tile `x` is rows `10000 r …` of `X` and the bias row and the weights are `B` and `W` themselves. -/
theorem tile_is_rows (x : Vec Ideal S10000x64 .f32) (b : Vec Ideal S1x64 .f32) (w : Vec Ideal S64x64 .f32)
    (X : S150000x64.Idx → EReal) (B : S1x64.Idx → EReal) (W : S64x64.Idx → EReal) (r : ℕ)
    (hx : ∀ (y : S10000x64.Idx) (i : S150000x64.Idx), (i 0).val = r * 10000 + (y 0).val → (i 1).val = (y 1).val → x y = X i)
    (hb : ∀ y, b y = B y) (hw : ∀ y, w y = W y)
    (p : Fin 10000) (q : Fin 64) (i : S150000x64.Idx) (hi0 : (i 0).val = r * 10000 + p.val) (hi1 : (i 1).val = q.val) :
    k1_pay1 x b w (ValueIdx.ix2 p q) = Cert.Gcn.layer X (fun d => B (ValueIdx.ix2 0 d)) W i := by
  refine (tile_apply x b w p q).trans ?_
  show _ = ∑ d : Fin 64, max (X (ValueIdx.ix2 (i 0) d) + B (ValueIdx.ix2 0 d)) Cert.Gcn.zeroE * W (ValueIdx.ix2 (i 1) d)
  refine Finset.sum_congr rfl fun d _ => ?_
  rw [hx (ValueIdx.ix2 p d) (ValueIdx.ix2 (i 0) d) hi0 rfl, hb, hw]
  refine congrArg (fun z => max (X (ValueIdx.ix2 (i 0) d) + B (ValueIdx.ix2 0 d)) Cert.Gcn.zeroE * W z) (funext fun a => Fin.ext ?_)
  match a with
  | ⟨0, _⟩ => exact hi1.symm
  | ⟨1, _⟩ => rfl

/-! ## The tiles' places in the arrays -/

/-- The pair of zero offsets is the zero function. -/
theorem zero_offsets : (![0, 0] : Fin 2 → Nat) = fun _ => 0 := funext fun a => by fin_cases a <;> rfl

/-- The windows' index maps, decided over the fifteen grid points: the node arrays' tiles are at block row `t`, block
    column 0; the bias row and the weights are their one block. -/
theorem tile_places : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row of the output is some grid point's. -/
theorem tile_onto : ∀ r : Fin 15, ∃ t : Fin cfg1.N, win1_3.index t = ![r.val, 0] :=
  (by decide +kernel : ∀ r : Fin 15, ∃ t : Fin grid1.N, win1_3.index t = ![r.val, 0])

/-- The input tile at point `t` is rows `10000 t …` of the node array. -/
theorem node_tile_apply (c : Dev nD) (t : Fin cfg1.N) (y : S10000x64.Idx) (i : S150000x64.Idx)
    (h0 : (i 0).val = t.val * 10000 + (y 0).val) (h1 : (i 1).val = (y 1).val) :
    iblk1 V c 0 t y = V c main_v43 i := by
  obtain ⟨e0, e1, -⟩ := tile_places t
  show V c main_v43 (((cfg1.win 0).blk t).view.emb y) = V c main_v43 i
  refine congrArg (V c main_v43) (funext fun a => Fin.ext ?_)
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The bias window's one block is the bias row. -/
theorem bias_block_apply (c : Dev nD) (t : Fin cfg1.N) (y : S1x64.Idx) : iblk1 V c 1 t y = V c main_v44 y := by
  obtain ⟨-, -, e0, e1, -⟩ := tile_places t
  show V c main_v44 (((cfg1.win 1).blk t).view.emb y) = V c main_v44 y
  refine congrArg (V c main_v44) (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- The weight window's one block is the weight array. -/
theorem weight_block_apply (c : Dev nD) (t : Fin cfg1.N) (y : S64x64.Idx) : iblk1 V c 2 t y = V c main_arg4 y := by
  obtain ⟨-, -, -, -, e0, e1, -⟩ := tile_places t
  show V c main_arg4 (((cfg1.win 2).blk t).view.emb y) = V c main_arg4 y
  refine congrArg (V c main_arg4) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-! ## What a point writes back, and the array the stage leaves -/

/-- What point `t` writes back is block `t` of `Cert.Gcn.layer` of the arrays as the stage finds them. -/
theorem written_back_eq (c : Dev nD) (t : Fin cfg1.N) :
    (dat1 (F := Ideal) V c).flushed 3 t
      = ((cfg1.win 3).blk t).view.read (Elt Ideal)
          (Cert.Gcn.layer (V c main_v43) (fun d => V c main_v44 (ValueIdx.ix2 0 d)) (V c main_arg4)) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S1x64) zero_offsets,
    View.ld_unit_zero (S := S64x64) zero_offsets]
  obtain ⟨-, -, -, -, -, -, e0, e1⟩ := tile_places t
  funext j
  obtain ⟨p, q, rfl⟩ : ∃ (p : Fin 10000) (q : Fin 64), j = ValueIdx.ix2 p q := ⟨j 0, j 1, ValueIdx.eq_ix2 j⟩
  refine tile_is_rows (iblk1 V c 0 t) (iblk1 V c 1 t) (iblk1 V c 2 t) (V c main_v43) (V c main_v44) (V c main_arg4) t.val
    (node_tile_apply V c t) (bias_block_apply V c t) (weight_block_apply V c t) p q (((cfg1.win 3).blk t).view.emb (ValueIdx.ix2 p q)) ?_ ?_
  · show win1_3.index t (0 : Fin 2) * 10000 + 1 * p.val = t.val * 10000 + p.val; omega
  · show win1_3.index t (1 : Fin 2) * 64 + 1 * q.val = q.val; omega

/-- An index of the array is in point `t`'s block iff each coordinate is in the block's range on its axis. -/
theorem mem_result_tile (t : Fin cfg1.N) (i : S150000x64.Idx) :
    i ∈ ((cfg1.win 3).blk t).view.set
      ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- The fifteen blocks cover the array: row `r` lies in the block of point `r / 10000`. -/
theorem tiles_cover (i : S150000x64.Idx) :
    ∃ t : Fin cfg1.N, (cfg1.win 3).flush t = true ∧ i ∈ ((cfg1.win 3).blk t).view.set := by
  have hi0 : (i 0).val < 150000 := (i 0).isLt
  have hi1 : (i 1).val < 64 := (i 1).isLt
  obtain ⟨t, ht⟩ := tile_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_result_tile]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

end Layer

/-- The array the stage leaves is `Cert.Gcn.layer` of the arrays it found. -/
theorem final1 (c : Dev nD) :
    (dat1 (F := Ideal) V c).arrAt 3 cfg1.N
      = Cert.Gcn.layer (V c main_v43) (fun d => V c main_v44 (ValueIdx.ix2 0 d)) (V c main_arg4) :=
  (dat1 (F := Ideal) V c).arrAt_eq_of_cover 3 _ (fun t _ => Layer.written_back_eq V c t) Layer.tiles_cover

end Cert.KernelIdeal.RegionValue

end
-- ==== Proof.Region2Value.lean ====
/-
  The head, read off the buffer contents at its entry.

  The region walks the 150000 rows of the hidden array in 15 tiles of 10000 rows. At tile \`t\` it loads rows
  \`10000 t … 10000 t + 9999\` of the hidden array, the one-row bias, the one-row weight and the one-entry offset,
  adds the bias along every row, takes the positive part, multiplies by the transpose of the weight row and adds the
  offset; the 10000 × 1 result is written back over rows \`10000 t … 10000 t + 9999\` of the one-column output.
  Over the extended reals the narrowing of the operands is the identity and the product is exact, so entry \`p\` of
  the tile's result is the inner product of the rectified row \`p\` with the weight row, plus the offset: the tile
  is the restriction of the whole-array head to its rows, and the 15 tiles cover every row once.
-/
import proofs.«125318_j61512521613334_1_alg».proof.Proof.Gen.KernelIdeal.Frame
import proofs.«125318_j61512521613334_1_alg».proof.Proof.Spec
import proofs.«125318_j61512521613334_1_alg».proof.Proof.LibMatmulRead
import Idealize.ShloMosaic.Lib.Pipeline.Value
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

namespace Head

/-- The offsets of a load or store of a whole tile are zero on both axes. -/
theorem head_zero_offsets : (![0, 0] : Fin 2 → Nat) = fun _ => 0 := funext fun a => by fin_cases a <;> rfl

/-! ## One tile's result, entry by entry -/

/-- Entry \`p\` of the tile's result: the bias added along row \`p\` of the loaded tile, the positive part taken, the
    row set against the weight row, and the offset added. -/
theorem head_tile_apply (x : Vec Ideal S10000x64 .f32) (b : Vec Ideal S1x64 .f32) (w : Vec Ideal S1x64 .f32)
    (b3 : Vec Ideal S1x1 .f32) (p : Fin 10000) :
    k2_pay1 x b w b3 (ValueIdx.ix2 p (0 : Fin 1))
      = (∑ d : Fin 64, max (x (ValueIdx.ix2 p d) + b (ValueIdx.ix2 (0 : Fin 1) d)) Cert.Gcn.zeroE
            * w (ValueIdx.ix2 (0 : Fin 1) d))
          + b3 (ValueIdx.ix2 (0 : Fin 1) (0 : Fin 1)) := by
  unfold k2_pay1
  dsimp only
  refine (ValueIdx.addf_apply _ _ _).trans ?_
  refine congrArg₂ (· + ·) ?_ ?_
  · refine (ValueIdx.matmul_transpose_ix2_apply dot_S10000x64_S64x1_S10000x1_1_0_0_1_n_n rfl rfl rfl rfl rfl rfl none
      _ _ transposes_S1x64_p1_0_S64x1 p (0 : Fin 1)).trans ?_
    refine Finset.sum_congr rfl fun d _ => ?_
    refine congrArg₂ (· * ·) ?_ rfl
    show max (shapeCast S10000x64 x shapeCasts_S10000x64_S10000x64 (ValueIdx.ix2 p d)
        + broadcastTo S10000x64 (shapeCast S1x64 b shapeCasts_S1x64_S1x64) broadcasts_S1x64_S10000x64 (ValueIdx.ix2 p d))
      Cert.Gcn.zeroE = _
    rw [shapeCast_self, shapeCast_self, ValueIdx.broadcastTo_1b_ab_apply]
  · show broadcastTo S10000x1 (shapeCast S1x1 b3 shapeCasts_S1x1_S1x1) broadcasts_S1x1_S10000x1
        (ValueIdx.ix2 p (0 : Fin 1)) = _
    rw [shapeCast_self, ValueIdx.broadcastTo_1b_ab_apply]

/-! ## Where tile \`t\` sits in the arrays -/

/-- The block indices at tile \`t\`: the hidden tile and the output tile are both the \`t\`-th along the rows and the
    only one along the columns; the bias, the weight and the offset are one block each. -/
theorem head_tile_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every row tile is some point's. -/
theorem head_tile_onto : ∀ r : Fin 15, ∃ t : Fin cfg2.N, t.val = r.val :=
  (by decide +kernel : ∀ r : Fin 15, ∃ t : Fin grid2.N, t.val = r.val)

/-- Entry \`(p, d)\` of the hidden tile at point \`t\` is entry \`(10000 t + p, d)\` of the hidden array. -/
theorem hidden_tile_apply (c : Dev nD) (t : Fin cfg2.N) (p : Fin 10000) (d : Fin 64) (i : S150000x64.Idx)
    (h0 : (i 0).val = t.val * 10000 + p.val) (h1 : (i 1).val = d.val) :
    iblk2 V c 0 t (ValueIdx.ix2 p d) = V c main_v58 i := by
  obtain ⟨e0, e1, -⟩ := head_tile_indices t
  show V c main_v58 (((cfg2.win 0).blk t).view.emb (ValueIdx.ix2 p d)) = V c main_v58 i
  refine congrArg _ (funext fun a => Fin.ext ?_)
  match a with
  | ⟨0, _⟩ => show win2_0.index t (0 : Fin 2) * 10000 + 1 * p.val = (i 0).val; omega
  | ⟨1, _⟩ => show win2_0.index t (1 : Fin 2) * 64 + 1 * d.val = (i 1).val; omega

/-- The bias block at any point is the bias array. -/
theorem bias_block_apply (c : Dev nD) (t : Fin cfg2.N) (d : Fin 64) :
    iblk2 V c 1 t (ValueIdx.ix2 (0 : Fin 1) d) = V c main_v59 (ValueIdx.ix2 (0 : Fin 1) d) := by
  obtain ⟨-, -, e2, e3, -⟩ := head_tile_indices t
  show V c main_v59 (((cfg2.win 1).blk t).view.emb (ValueIdx.ix2 (0 : Fin 1) d)) = V c main_v59 (ValueIdx.ix2 (0 : Fin 1) d)
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * d.val = d.val; omega

/-- The weight block at any point is the weight array. -/
theorem weight_row_apply (c : Dev nD) (t : Fin cfg2.N) (d : Fin 64) :
    iblk2 V c 2 t (ValueIdx.ix2 (0 : Fin 1) d) = V c main_arg6 (ValueIdx.ix2 (0 : Fin 1) d) := by
  obtain ⟨-, -, -, -, e4, e5, -⟩ := head_tile_indices t
  show V c main_arg6 (((cfg2.win 2).blk t).view.emb (ValueIdx.ix2 (0 : Fin 1) d)) = V c main_arg6 (ValueIdx.ix2 (0 : Fin 1) d)
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * d.val = d.val; omega

/-- The offset block at any point is the offset array. -/
theorem offset_block_apply (c : Dev nD) (t : Fin cfg2.N) :
    iblk2 V c 3 t (ValueIdx.ix2 (0 : Fin 1) (0 : Fin 1)) = V c main_v60 (ValueIdx.ix2 (0 : Fin 1) (0 : Fin 1)) := by
  obtain ⟨-, -, -, -, -, -, e6, e7, -⟩ := head_tile_indices t
  show V c main_v60 (((cfg2.win 3).blk t).view.emb (ValueIdx.ix2 (0 : Fin 1) (0 : Fin 1)))
    = V c main_v60 (ValueIdx.ix2 (0 : Fin 1) (0 : Fin 1))
  refine congrArg _ (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

/-- Entry \`p\` of the output tile at point \`t\` sits at row \`10000 t + p\` of the output array. -/
theorem output_tile_row (t : Fin cfg2.N) (p : Fin 10000) :
    ((((cfg2.win 4).blk t).view.emb (ValueIdx.ix2 p (0 : Fin 1))) 0).val = t.val * 10000 + p.val := by
  obtain ⟨-, -, -, -, -, -, -, -, e8, -⟩ := head_tile_indices t
  show win2_4.index t (0 : Fin 2) * 10000 + 1 * p.val = t.val * 10000 + p.val
  omega

/-! ## What each point writes back -/

/-- What point \`t\` writes back is tile \`t\` of the whole-array head of the arrays as the region finds them. -/
theorem written_head_tile_eq (c : Dev nD) (t : Fin cfg2.N) :
    (dat2 (F := Ideal) V c).flushed 4 t
      = ((cfg2.win 4).blk t).view.read (Elt Ideal)
          (Cert.Gcn.head (V c main_v58) (fun d => V c main_v59 (ValueIdx.ix2 0 d)) (V c main_arg6)
            (V c main_v60 (ValueIdx.ix2 0 0))) := by
  show (cfg2.win 4).cut (grid2.coords t) ((dat2 V c).after 4 t) = _
  rw [after2_4]
  unfold out2_4
  rw [View.canon_unit_zero head_zero_offsets]
  simp only [View.ld_unit_zero (S := S10000x64) head_zero_offsets, View.ld_unit_zero (S := S1x64) head_zero_offsets,
    View.ld_unit_zero (S := S1x1) head_zero_offsets]
  funext j
  obtain ⟨p, r, rfl⟩ : ∃ (p : Fin 10000) (r : Fin 1), j = ValueIdx.ix2 p r := ⟨j 0, j 1, ValueIdx.eq_ix2 j⟩
  obtain rfl : r = 0 := Subsingleton.elim _ _
  refine (head_tile_apply (iblk2 V c 0 t) (iblk2 V c 1 t) (iblk2 V c 2 t) (iblk2 V c 3 t) p).trans ?_
  show _ = Cert.Gcn.headAt (V c main_v58) (fun d => V c main_v59 (ValueIdx.ix2 0 d)) (V c main_arg6)
      (V c main_v60 (ValueIdx.ix2 0 0)) ((((cfg2.win 4).blk t).view.emb (ValueIdx.ix2 p (0 : Fin 1))) 0)
  unfold Cert.Gcn.headAt
  refine congrArg₂ (· + ·) (Finset.sum_congr rfl fun d _ => congrArg₂ (· * ·) (congrArg₂ max (congrArg₂ (· + ·) ?_ ?_) rfl) ?_) ?_
  · exact hidden_tile_apply V c t p d _ (output_tile_row t p) rfl
  · exact bias_block_apply V c t d
  · exact weight_row_apply V c t d
  · exact offset_block_apply V c t

/-! ## The tiles cover the output -/

/-- An index of the output array is in point \`t\`'s tile iff each coordinate is in the tile's range on its axis. -/
theorem mem_output_tile (t : Fin cfg2.N) (i : S150000x1.Idx) :
    i ∈ ((cfg2.win 4).blk t).view.set ↔ ∀ a : Fin 2, win2_4.index t a * S10000x1.size a ≤ (i a).val
      ∧ (i a).val < win2_4.index t a * S10000x1.size a + S10000x1.size a := by
  show i ∈ ((View.whole main_v61).slice (win2_4.rect t)).set ↔ _
  rw [View.set_slice_whole, Rect.mem_set_unit]
  exact Iff.rfl

/-- Row \`r\` of the output is in tile \`r / 10000\`, which is written back: every index is covered. -/
theorem output_covered (i : S150000x1.Idx) :
    ∃ t : Fin cfg2.N, (cfg2.win 4).flush t = true ∧ i ∈ ((cfg2.win 4).blk t).view.set := by
  have hi0 : (i 0).val < 150000 := (i 0).isLt
  have hi1 : (i 1).val < 1 := (i 1).isLt
  obtain ⟨t, ht⟩ := head_tile_onto ⟨(i 0).val / 10000, by omega⟩
  have ht' : t.val = (i 0).val / 10000 := ht
  obtain ⟨-, -, -, -, -, -, -, -, e8, e9⟩ := head_tile_indices t
  refine ⟨t, flush2_4 t, ?_⟩
  rw [mem_output_tile]
  intro a
  match a with
  | ⟨0, _⟩ =>
    show win2_4.index t (0 : Fin 2) * 10000 ≤ (i 0).val ∧ (i 0).val < win2_4.index t (0 : Fin 2) * 10000 + 10000
    omega
  | ⟨1, _⟩ =>
    show win2_4.index t (1 : Fin 2) * 1 ≤ (i 1).val ∧ (i 1).val < win2_4.index t (1 : Fin 2) * 1 + 1
    omega

end Head

/-! ## The output array -/

/-- After the region the output array is the head of the hidden array, the bias row, the weight row and the offset,
    all as the region finds them. -/
theorem final2 (c : Dev nD) :
    (dat2 (F := Ideal) V c).arrAt 4 cfg2.N
      = Cert.Gcn.head (V c main_v58) (fun d => V c main_v59 (ValueIdx.ix2 0 d)) (V c main_arg6) (V c main_v60 (ValueIdx.ix2 0 0)) :=
  (dat2 (F := Ideal) V c).arrAt_eq_of_cover 4
    (Cert.Gcn.head (V c main_v58) (fun d => V c main_v59 (ValueIdx.ix2 0 d)) (V c main_arg6) (V c main_v60 (ValueIdx.ix2 0 0)))
    (fun t _ => Head.written_head_tile_eq V c t) Head.output_covered

end Cert.KernelIdeal.RegionValue

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RefDense.lean ====
/-
  The three dense stages of the reference, read entry by entry.

  Each stage is written as operations over whole arrays: a product of a node array with the transpose of a weight
  array, for the later two stages after a bias has been added along every row and the positive part taken, and for
  the last stage with a scalar bias added to the single output column. At the exact extended-real values each of
  these is, at entry `(p, q)`, the inner product of row `p` of the (biased, clipped) node array with row `q` of
  the weight array: the product reads the sum over the contracted coordinate, the transpose swaps the two
  coordinates of the weight, the two-step broadcast of a bias reads the bias's own entry, and the broadcast scalar
  zero reads the word of the float zero. The record of dimension numbers and the shape witnesses are arbitrary; the
  six axis lists of the record are the plain product's.
-/
import proofs.«125318_j61512521613334_1_alg».proof.Proof.Spec
import proofs.«125318_j61512521613334_1_alg».proof.Proof.LibHostRead
import proofs.«125318_j61512521613334_1_alg».proof.Proof.LibMatmulRead
import Idealize.ShloMosaic.PureOps.Ideal.Laws
import Idealize.ShloMosaic.Lib.Pipeline.Value
import Idealize.ShloMosaic.Lib.ValueIdx

noncomputable section

open scoped BigOperators

namespace Cert.Gcn

open Idealize.ShloMosaic Idealize.ShloMosaic.ValueIdx

/-- The epilogue `max (x + b) 0` at entry `(p, d)`: the bias, broadcast to a row and down the rows, contributes
    its entry `d`; the broadcast scalar zero contributes the word of the float zero. -/
theorem relu_bias_apply {a : ℕ}
    (h1 : (⟨1, ![64]⟩ : Shape).BroadcastsInDim ⟨2, ![1, 64]⟩ ![1])
    (h2 : (⟨2, ![1, 64]⟩ : Shape).BroadcastsInDim ⟨2, ![a, 64]⟩ ![0, 1])
    (h0 : (⟨0, ![]⟩ : Shape).BroadcastsInDim ⟨2, ![a, 64]⟩ ![])
    (x : FVec Ideal ⟨2, ![a, 64]⟩ .f32) (b : FVec Ideal ⟨1, ![64]⟩ .f32) (p : Fin a) (d : Fin 64) :
    maximumf (addf x (broadcastInDim ⟨2, ![a, 64]⟩ ![0, 1] h2 (broadcastInDim ⟨2, ![1, 64]⟩ ![1] h1 b)))
        (broadcastInDim ⟨2, ![a, 64]⟩ ![] h0 (constant (F := Ideal) ⟨0, ![]⟩ .f32 0x00000000#32)) (ix2 p d)
      = max (x (ix2 p d) + b (ix1 d)) zeroE := by
  refine (maximumf_apply _ _ (ix2 p d)).trans ?_
  refine congrArg₂ max ?_ (Cert.HostRead.scalar_bcast_apply h0 _ (ix2 p d))
  refine (addf_apply x _ (ix2 p d)).trans ?_
  exact congrArg (x (ix2 p d) + ·) (Cert.HostRead.bias_rows_apply h1 h2 b p d)

/-- The first projection: `x · wᵀ`, 128 features to 64. -/
theorem ref_proj (D : DotDims ⟨2, ![150000, 128]⟩ ⟨2, ![128, 64]⟩ ⟨2, ![150000, 64]⟩)
    (hlc : D.lhsContracting = [1]) (hrc : D.rhsContracting = [0]) (hln : D.lhsNonContracting = [0])
    (hrn : D.rhsNonContracting = [1]) (hlb : D.lhsBatch = []) (hrb : D.rhsBatch = [])
    (ht : (⟨2, ![64, 128]⟩ : Shape).Transposes [1, 0] ⟨2, ![128, 64]⟩)
    (x : FVec Ideal ⟨2, ![150000, 128]⟩ .f32) (w : FVec Ideal ⟨2, ![64, 128]⟩ .f32) :
    Host.dotGeneral D none x (transpose ⟨2, ![128, 64]⟩ [1, 0] w ht) = proj x w := by
  funext i
  obtain ⟨p, q, rfl⟩ : ∃ (p : Fin 150000) (q : Fin 64), i = ix2 p q := ⟨i 0, i 1, eq_ix2 i⟩
  refine (Cert.HostRead.dotGeneral_ix2_apply D hlc hrc hln hrn hlb hrb none x _ p q).trans ?_
  show _ = ∑ d : Fin 128, x (ix2 p d) * w (ix2 q d)
  exact Finset.sum_congr rfl fun d _ => congrArg (x (ix2 p d) * ·) (transpose_ab_ba_apply w ht d q)

/-- The second stage: `max (x + b) 0 · wᵀ`, 64 features to 64. -/
theorem ref_layer (D : DotDims ⟨2, ![150000, 64]⟩ ⟨2, ![64, 64]⟩ ⟨2, ![150000, 64]⟩)
    (hlc : D.lhsContracting = [1]) (hrc : D.rhsContracting = [0]) (hln : D.lhsNonContracting = [0])
    (hrn : D.rhsNonContracting = [1]) (hlb : D.lhsBatch = []) (hrb : D.rhsBatch = [])
    (ht : (⟨2, ![64, 64]⟩ : Shape).Transposes [1, 0] ⟨2, ![64, 64]⟩)
    (h1 : (⟨1, ![64]⟩ : Shape).BroadcastsInDim ⟨2, ![1, 64]⟩ ![1])
    (h2 : (⟨2, ![1, 64]⟩ : Shape).BroadcastsInDim ⟨2, ![150000, 64]⟩ ![0, 1])
    (h0 : (⟨0, ![]⟩ : Shape).BroadcastsInDim ⟨2, ![150000, 64]⟩ ![])
    (x : FVec Ideal ⟨2, ![150000, 64]⟩ .f32) (b : FVec Ideal ⟨1, ![64]⟩ .f32) (w : FVec Ideal ⟨2, ![64, 64]⟩ .f32) :
    Host.dotGeneral D none
        (maximumf (addf x (broadcastInDim ⟨2, ![150000, 64]⟩ ![0, 1] h2 (broadcastInDim ⟨2, ![1, 64]⟩ ![1] h1 b)))
          (broadcastInDim ⟨2, ![150000, 64]⟩ ![] h0 (constant (F := Ideal) ⟨0, ![]⟩ .f32 0x00000000#32)))
        (transpose ⟨2, ![64, 64]⟩ [1, 0] w ht)
      = layer x (fun d => b (ix1 d)) w := by
  funext i
  obtain ⟨p, q, rfl⟩ : ∃ (p : Fin 150000) (q : Fin 64), i = ix2 p q := ⟨i 0, i 1, eq_ix2 i⟩
  refine (Cert.HostRead.dotGeneral_ix2_apply D hlc hrc hln hrn hlb hrb none _ _ p q).trans ?_
  show _ = ∑ d : Fin 64, max (x (ix2 p d) + b (ix1 d)) zeroE * w (ix2 q d)
  exact Finset.sum_congr rfl fun d _ =>
    congrArg₂ (· * ·) (relu_bias_apply h1 h2 h0 x b p d) (transpose_ab_ba_apply w ht d q)

/-- The head: `max (x + b) 0` against the single row of `w`, plus the scalar `b3`, as one column. -/
theorem ref_head (D : DotDims ⟨2, ![150000, 64]⟩ ⟨2, ![64, 1]⟩ ⟨2, ![150000, 1]⟩)
    (hlc : D.lhsContracting = [1]) (hrc : D.rhsContracting = [0]) (hln : D.lhsNonContracting = [0])
    (hrn : D.rhsNonContracting = [1]) (hlb : D.lhsBatch = []) (hrb : D.rhsBatch = [])
    (ht : (⟨2, ![1, 64]⟩ : Shape).Transposes [1, 0] ⟨2, ![64, 1]⟩)
    (h1 : (⟨1, ![64]⟩ : Shape).BroadcastsInDim ⟨2, ![1, 64]⟩ ![1])
    (h2 : (⟨2, ![1, 64]⟩ : Shape).BroadcastsInDim ⟨2, ![150000, 64]⟩ ![0, 1])
    (h0 : (⟨0, ![]⟩ : Shape).BroadcastsInDim ⟨2, ![150000, 64]⟩ ![])
    (h3 : (⟨1, ![1]⟩ : Shape).BroadcastsInDim ⟨2, ![1, 1]⟩ ![1])
    (h4 : (⟨2, ![1, 1]⟩ : Shape).BroadcastsInDim ⟨2, ![150000, 1]⟩ ![0, 1])
    (x : FVec Ideal ⟨2, ![150000, 64]⟩ .f32) (b : FVec Ideal ⟨1, ![64]⟩ .f32) (w : FVec Ideal ⟨2, ![1, 64]⟩ .f32)
    (b3 : FVec Ideal ⟨1, ![1]⟩ .f32) :
    addf (Host.dotGeneral D none
            (maximumf (addf x (broadcastInDim ⟨2, ![150000, 64]⟩ ![0, 1] h2 (broadcastInDim ⟨2, ![1, 64]⟩ ![1] h1 b)))
              (broadcastInDim ⟨2, ![150000, 64]⟩ ![] h0 (constant (F := Ideal) ⟨0, ![]⟩ .f32 0x00000000#32)))
            (transpose ⟨2, ![64, 1]⟩ [1, 0] w ht))
         (broadcastInDim ⟨2, ![150000, 1]⟩ ![0, 1] h4 (broadcastInDim ⟨2, ![1, 1]⟩ ![1] h3 b3))
      = head x (fun d => b (ix1 d)) w (b3 (ix1 0)) := by
  funext i
  obtain ⟨p, q, rfl⟩ : ∃ (p : Fin 150000) (q : Fin 1), i = ix2 p q := ⟨i 0, i 1, eq_ix2 i⟩
  obtain rfl : q = 0 := Subsingleton.elim q 0
  refine (addf_apply _ _ (ix2 p 0)).trans ?_
  show _ = (∑ d : Fin 64, max (x (ix2 p d) + b (ix1 d)) zeroE * w (ix2 0 d)) + b3 (ix1 0)
  refine congrArg₂ (· + ·) ?_ (Cert.HostRead.bias_rows_apply h3 h4 b3 p 0)
  refine (Cert.HostRead.dotGeneral_ix2_apply D hlc hrc hln hrn hlb hrb none _ _ p 0).trans ?_
  exact Finset.sum_congr rfl fun d _ =>
    congrArg₂ (· * ·) (relu_bias_apply h1 h2 h0 x b p d) (transpose_ab_ba_apply w ht d 0)

end Cert.Gcn

end
-- ==== Proof.Bridge.lean ====
/-
  The two programs compute one function of the argument arrays.

  Both are a two-layer graph convolution with a linear head. What they share — the message lists, the message weights,
  the two rounds of message passing and the final re-layout — is the same host operations on both sides, and is carried
  here as the reference's stage functions, never opened. What differs is how the three dense stages are computed: the
  reference by whole-array host products, the kernel by three pallas_call regions that each work through the 150000
  rows in fifteen blocks of 10000. Both are the whole-array functions `proj`, `layer` and `head`:
    • `value`        : the common result, the stages composed around those three functions;
    • `ref_value`    : the reference's result is `value` — each of its dense stages read entry by entry;
    • `kernel_value` : the kernel's result buffer ends at `value` — each boundary of its run read in turn: a stretch of
                        host operations applies the reference's stage to what the boundary before it holds, a region
                        leaves its dense function of the arrays it was entered with, and a buffer nobody writes is
                        carried along. The two bias lists reach the regions laid out as rows; a row read at `(0, d)` is
                        the list at `d`.
-/
import proofs.«125318_j61512521613334_1_alg».proof.Proof.KernelRun
import proofs.«125318_j61512521613334_1_alg».proof.Proof.KHostNorm
import proofs.«125318_j61512521613334_1_alg».proof.Proof.KHostLayer1
import proofs.«125318_j61512521613334_1_alg».proof.Proof.KHostLayer2
import proofs.«125318_j61512521613334_1_alg».proof.Proof.KHostTail
import proofs.«125318_j61512521613334_1_alg».proof.Proof.Region0Value
import proofs.«125318_j61512521613334_1_alg».proof.Proof.Region1Value
import proofs.«125318_j61512521613334_1_alg».proof.Proof.Region2Value
import proofs.«125318_j61512521613334_1_alg».proof.Proof.RefDense
import proofs.«125318_j61512521613334_1_alg».proof.Proof.RefStages
import Idealize.ShloMosaic.Lib.ValueLayout

set_option maxRecDepth 16384

noncomputable section

namespace Cert.Bridge

open Idealize.ShloMosaic Idealize.ShloMosaic.TcCoe Idealize.SL.Sem Idealize.ShloMosaic.ValueIdx

/-- What both programs compute from the eight argument arrays. -/
def value (a0 : (⟨Cert.ReferenceIdeal.S150000x128, .f32⟩ : BufTy).Contents (Elt Ideal)) (a1 : (⟨Cert.ReferenceIdeal.S2x600000, .i32⟩ : BufTy).Contents (Elt Ideal)) (a2 : (⟨Cert.ReferenceIdeal.S64x128, .f32⟩ : BufTy).Contents (Elt Ideal))
    (a3 : (⟨Cert.ReferenceIdeal.S64, .f32⟩ : BufTy).Contents (Elt Ideal)) (a4 : (⟨Cert.ReferenceIdeal.S64x64, .f32⟩ : BufTy).Contents (Elt Ideal)) (a5 : (⟨Cert.ReferenceIdeal.S64, .f32⟩ : BufTy).Contents (Elt Ideal))
    (a6 : (⟨Cert.ReferenceIdeal.S1x64, .f32⟩ : BufTy).Contents (Elt Ideal)) (a7 : (⟨Cert.ReferenceIdeal.S1, .f32⟩ : BufTy).Contents (Elt Ideal)) : (⟨Cert.ReferenceIdeal.S120000, .f32⟩ : BufTy).Contents (Elt Ideal) :=
  Cert.ReferenceIdeal.Stages.tail (F := Ideal)
    (Cert.Gcn.head
      (Cert.ReferenceIdeal.Stages.gssOf (F := Ideal)
        (Cert.Gcn.layer
          (Cert.ReferenceIdeal.Stages.gssOf (F := Ideal) (Cert.Gcn.proj a0 a2) (Cert.ReferenceIdeal.Stages.rowIdx (F := Ideal) a1) (Cert.ReferenceIdeal.Stages.colIdx (F := Ideal) a1)
            (Cert.ReferenceIdeal.Stages.normOf (F := Ideal) (Cert.ReferenceIdeal.Stages.rowIdx (F := Ideal) a1) (Cert.ReferenceIdeal.Stages.colIdx (F := Ideal) a1)))
          (fun d => a3 (ix1 d)) a4)
        (Cert.ReferenceIdeal.Stages.rowIdx (F := Ideal) a1) (Cert.ReferenceIdeal.Stages.colIdx (F := Ideal) a1)
        (Cert.ReferenceIdeal.Stages.normOf (F := Ideal) (Cert.ReferenceIdeal.Stages.rowIdx (F := Ideal) a1) (Cert.ReferenceIdeal.Stages.colIdx (F := Ideal) a1)))
      (fun d => a5 (ix1 d)) a6 (a7 (ix1 0)))

/-- The reference's result is `value`: its three dense stages are `proj`, `layer` and `head`. -/
theorem ref_value (a0 : (⟨Cert.ReferenceIdeal.S150000x128, .f32⟩ : BufTy).Contents (Elt Ideal)) (a1 : (⟨Cert.ReferenceIdeal.S2x600000, .i32⟩ : BufTy).Contents (Elt Ideal)) (a2 : (⟨Cert.ReferenceIdeal.S64x128, .f32⟩ : BufTy).Contents (Elt Ideal))
    (a3 : (⟨Cert.ReferenceIdeal.S64, .f32⟩ : BufTy).Contents (Elt Ideal)) (a4 : (⟨Cert.ReferenceIdeal.S64x64, .f32⟩ : BufTy).Contents (Elt Ideal)) (a5 : (⟨Cert.ReferenceIdeal.S64, .f32⟩ : BufTy).Contents (Elt Ideal))
    (a6 : (⟨Cert.ReferenceIdeal.S1x64, .f32⟩ : BufTy).Contents (Elt Ideal)) (a7 : (⟨Cert.ReferenceIdeal.S1, .f32⟩ : BufTy).Contents (Elt Ideal)) :
    Cert.ReferenceIdeal.Stages.out (F := Ideal) a0 a1 a2 a3 a4 a5 a6 a7 = value a0 a1 a2 a3 a4 a5 a6 a7 := by
  have e1 : Cert.ReferenceIdeal.Stages.dense1 (F := Ideal) a0 a2 = Cert.Gcn.proj a0 a2 :=
    Cert.Gcn.ref_proj _ rfl rfl rfl rfl rfl rfl _ a0 a2
  have e2 : ∀ x, Cert.ReferenceIdeal.Stages.dense2 (F := Ideal) x a3 a4 = Cert.Gcn.layer x (fun d => a3 (ix1 d)) a4 := fun x =>
    Cert.Gcn.ref_layer _ rfl rfl rfl rfl rfl rfl _ _ _ _ x a3 a4
  have e3 : ∀ x, Cert.ReferenceIdeal.Stages.dense3 (F := Ideal) x a5 a6 a7 = Cert.Gcn.head x (fun d => a5 (ix1 d)) a6 (a7 (ix1 0)) := fun x =>
    Cert.Gcn.ref_head _ rfl rfl rfl rfl rfl rfl _ _ _ _ _ _ x a5 a6 a7
  unfold Cert.ReferenceIdeal.Stages.out value
  rw [e1, e2, e3]

section Kernel

open Cert.KernelIdeal Cert.KernelIdeal.Gen Cert.KernelIdeal.HostValue

variable (m : (ℓ : Loc nD τ sig) → Buf (Elt Ideal) ℓ) (ρ : Dev nD → PrngReg)

/-- The kernel's result buffer ends at `value` of the argument arrays. -/
theorem kernel_value (c : Dev nD) :
    W9 m ρ c (Proc.devRef .tc main_v64) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  -- the message lists and the weights, at the boundaries where a stretch reads them
  have row4 : W4 m ρ c (Proc.devRef .tc main_v3) = (Cert.ReferenceIdeal.Stages.rowIdx (F := Ideal) (m ((c : Thread nD τ).loc main_arg1))) := (W4_of_ne m ρ c main_v3 (by decide)).trans (row_eq m ρ c)
  have col4 : W4 m ρ c (Proc.devRef .tc main_v6) = (Cert.ReferenceIdeal.Stages.colIdx (F := Ideal) (m ((c : Thread nD τ).loc main_arg1))) := (W4_of_ne m ρ c main_v6 (by decide)).trans (col_eq m ρ c)
  have nrm4 : W4 m ρ c (Proc.devRef .tc main_v29) = (Cert.ReferenceIdeal.Stages.normOf (F := Ideal) (Cert.ReferenceIdeal.Stages.rowIdx (F := Ideal) (m ((c : Thread nD τ).loc main_arg1))) (Cert.ReferenceIdeal.Stages.colIdx (F := Ideal) (m ((c : Thread nD τ).loc main_arg1)))) := (W4_of_ne m ρ c main_v29 (by decide)).trans (norm_eq m ρ c)
  have row6 : W6 m ρ c (Proc.devRef .tc main_v3) = (Cert.ReferenceIdeal.Stages.rowIdx (F := Ideal) (m ((c : Thread nD τ).loc main_arg1))) :=
    ((W6_of_ne m ρ c main_v3 (by decide)).trans (Layer1.main_v3_kept m ρ c)).trans row4
  have col6 : W6 m ρ c (Proc.devRef .tc main_v6) = (Cert.ReferenceIdeal.Stages.colIdx (F := Ideal) (m ((c : Thread nD τ).loc main_arg1))) :=
    ((W6_of_ne m ρ c main_v6 (by decide)).trans (Layer1.main_v6_kept m ρ c)).trans col4
  have nrm6 : W6 m ρ c (Proc.devRef .tc main_v29) = (Cert.ReferenceIdeal.Stages.normOf (F := Ideal) (Cert.ReferenceIdeal.Stages.rowIdx (F := Ideal) (m ((c : Thread nD τ).loc main_arg1))) (Cert.ReferenceIdeal.Stages.colIdx (F := Ideal) (m ((c : Thread nD τ).loc main_arg1)))) :=
    ((W6_of_ne m ρ c main_v29 (by decide)).trans (Layer1.main_v29_kept m ρ c)).trans nrm4
  -- the arguments, at the boundaries where a region or a stretch reads them
  have a3_4 : W4 m ρ c (Proc.devRef .tc main_arg3) = (m ((c : Thread nD τ).loc main_arg3)) := (W4_of_ne m ρ c main_arg3 (by decide)).trans (arg3_eq m ρ c)
  have a4_5 : W5 m ρ c (Proc.devRef .tc main_arg4) = (m ((c : Thread nD τ).loc main_arg4)) :=
    (Layer1.main_arg4_kept m ρ c).trans ((W4_of_ne m ρ c main_arg4 (by decide)).trans (arg4_eq m ρ c))
  have a5_6 : W6 m ρ c (Proc.devRef .tc main_arg5) = (m ((c : Thread nD τ).loc main_arg5)) :=
    (W6_of_ne m ρ c main_arg5 (by decide)).trans ((Layer1.main_arg5_kept m ρ c).trans ((W4_of_ne m ρ c main_arg5 (by decide)).trans (arg5_eq m ρ c)))
  have a7_6 : W6 m ρ c (Proc.devRef .tc main_arg7) = (m ((c : Thread nD τ).loc main_arg7)) :=
    (W6_of_ne m ρ c main_arg7 (by decide)).trans ((Layer1.main_arg7_kept m ρ c).trans ((W4_of_ne m ρ c main_arg7 (by decide)).trans (arg7_eq m ρ c)))
  have a6_7 : W7 m ρ c (Proc.devRef .tc main_arg6) = (m ((c : Thread nD τ).loc main_arg6)) :=
    (Layer2.main_arg6_kept m ρ c).trans ((W6_of_ne m ρ c main_arg6 (by decide)).trans ((Layer1.main_arg6_kept m ρ c).trans ((W4_of_ne m ρ c main_arg6 (by decide)).trans (arg6_eq m ρ c))))
  -- the first region: the projection of the launch arrays
  have x1 : W4 m ρ c (Proc.devRef .tc main_v30) = Cert.Gcn.proj (m ((c : Thread nD τ).loc main_arg0)) (m ((c : Thread nD τ).loc main_arg2)) := by
    refine ((W4_arr m ρ c 2).trans (Cert.KernelIdeal.RegionValue.final0 (V3 m ρ) c)).trans ?_
    show Cert.Gcn.proj (W3 m ρ c (Proc.devRef .tc main_arg0)) (W3 m ρ c (Proc.devRef .tc main_arg2)) = _
    rw [arg0_eq m ρ c, arg2_eq m ρ c]
  -- the first round of message passing, and the first bias as a row
  have y1 : W5 m ρ c (Proc.devRef .tc main_v43) = (Cert.ReferenceIdeal.Stages.gssOf (F := Ideal) (Cert.Gcn.proj (m ((c : Thread nD τ).loc main_arg0)) (m ((c : Thread nD τ).loc main_arg2))) (Cert.ReferenceIdeal.Stages.rowIdx (F := Ideal) (m ((c : Thread nD τ).loc main_arg1))) (Cert.ReferenceIdeal.Stages.colIdx (F := Ideal) (m ((c : Thread nD τ).loc main_arg1))) (Cert.ReferenceIdeal.Stages.normOf (F := Ideal) (Cert.ReferenceIdeal.Stages.rowIdx (F := Ideal) (m ((c : Thread nD τ).loc main_arg1))) (Cert.ReferenceIdeal.Stages.colIdx (F := Ideal) (m ((c : Thread nD τ).loc main_arg1))))) := by
    rw [Layer1.messages_eq m ρ c, x1, row4, col4, nrm4]
  have b1 : (fun d : Fin 64 => (W5 m ρ c (Proc.devRef .tc main_v44)) (ix2 0 d)) = fun d => (m ((c : Thread nD τ).loc main_arg3)) (ix1 d) := by
    funext d
    rw [Layer1.main_v44_eq m ρ c, a3_4]
    exact shapeCast_a_1a_apply _ _ 0 d
  -- the second region
  have x2 : W6 m ρ c (Proc.devRef .tc main_v45) = (Cert.Gcn.layer (Cert.ReferenceIdeal.Stages.gssOf (F := Ideal) (Cert.Gcn.proj (m ((c : Thread nD τ).loc main_arg0)) (m ((c : Thread nD τ).loc main_arg2))) (Cert.ReferenceIdeal.Stages.rowIdx (F := Ideal) (m ((c : Thread nD τ).loc main_arg1))) (Cert.ReferenceIdeal.Stages.colIdx (F := Ideal) (m ((c : Thread nD τ).loc main_arg1))) (Cert.ReferenceIdeal.Stages.normOf (F := Ideal) (Cert.ReferenceIdeal.Stages.rowIdx (F := Ideal) (m ((c : Thread nD τ).loc main_arg1))) (Cert.ReferenceIdeal.Stages.colIdx (F := Ideal) (m ((c : Thread nD τ).loc main_arg1))))) (fun d => (m ((c : Thread nD τ).loc main_arg3)) (ix1 d)) (m ((c : Thread nD τ).loc main_arg4))) := by
    refine ((W6_arr m ρ c 3).trans (Cert.KernelIdeal.RegionValue.final1 (V5 m ρ) c)).trans ?_
    show Cert.Gcn.layer (W5 m ρ c (Proc.devRef .tc main_v43)) (fun d : Fin 64 => (W5 m ρ c (Proc.devRef .tc main_v44)) (ix2 0 d)) (W5 m ρ c (Proc.devRef .tc main_arg4)) = _
    rw [y1, b1, a4_5]
  -- the second round of message passing, and the last two biases laid out for the third region
  have y2 : W7 m ρ c (Proc.devRef .tc main_v58) = (Cert.ReferenceIdeal.Stages.gssOf (F := Ideal) (Cert.Gcn.layer (Cert.ReferenceIdeal.Stages.gssOf (F := Ideal) (Cert.Gcn.proj (m ((c : Thread nD τ).loc main_arg0)) (m ((c : Thread nD τ).loc main_arg2))) (Cert.ReferenceIdeal.Stages.rowIdx (F := Ideal) (m ((c : Thread nD τ).loc main_arg1))) (Cert.ReferenceIdeal.Stages.colIdx (F := Ideal) (m ((c : Thread nD τ).loc main_arg1))) (Cert.ReferenceIdeal.Stages.normOf (F := Ideal) (Cert.ReferenceIdeal.Stages.rowIdx (F := Ideal) (m ((c : Thread nD τ).loc main_arg1))) (Cert.ReferenceIdeal.Stages.colIdx (F := Ideal) (m ((c : Thread nD τ).loc main_arg1))))) (fun d => (m ((c : Thread nD τ).loc main_arg3)) (ix1 d)) (m ((c : Thread nD τ).loc main_arg4))) (Cert.ReferenceIdeal.Stages.rowIdx (F := Ideal) (m ((c : Thread nD τ).loc main_arg1))) (Cert.ReferenceIdeal.Stages.colIdx (F := Ideal) (m ((c : Thread nD τ).loc main_arg1))) (Cert.ReferenceIdeal.Stages.normOf (F := Ideal) (Cert.ReferenceIdeal.Stages.rowIdx (F := Ideal) (m ((c : Thread nD τ).loc main_arg1))) (Cert.ReferenceIdeal.Stages.colIdx (F := Ideal) (m ((c : Thread nD τ).loc main_arg1))))) := by
    rw [Layer2.messages_eq m ρ c, x2, row6, col6, nrm6]
  have b2 : (fun d : Fin 64 => (W7 m ρ c (Proc.devRef .tc main_v59)) (ix2 0 d)) = fun d => (m ((c : Thread nD τ).loc main_arg5)) (ix1 d) := by
    funext d
    rw [Layer2.main_v59_eq m ρ c, a5_6]
    exact shapeCast_a_1a_apply _ _ 0 d
  have b3 : (W7 m ρ c (Proc.devRef .tc main_v60)) (ix2 0 0) = (m ((c : Thread nD τ).loc main_arg7)) (ix1 0) := by
    rw [Layer2.main_v60_eq m ρ c, a7_6]
    exact shapeCast_a_1a_apply _ _ 0 0
  -- the third region
  have x3 : W8 m ρ c (Proc.devRef .tc main_v61) = (Cert.Gcn.head (Cert.ReferenceIdeal.Stages.gssOf (F := Ideal) (Cert.Gcn.layer (Cert.ReferenceIdeal.Stages.gssOf (F := Ideal) (Cert.Gcn.proj (m ((c : Thread nD τ).loc main_arg0)) (m ((c : Thread nD τ).loc main_arg2))) (Cert.ReferenceIdeal.Stages.rowIdx (F := Ideal) (m ((c : Thread nD τ).loc main_arg1))) (Cert.ReferenceIdeal.Stages.colIdx (F := Ideal) (m ((c : Thread nD τ).loc main_arg1))) (Cert.ReferenceIdeal.Stages.normOf (F := Ideal) (Cert.ReferenceIdeal.Stages.rowIdx (F := Ideal) (m ((c : Thread nD τ).loc main_arg1))) (Cert.ReferenceIdeal.Stages.colIdx (F := Ideal) (m ((c : Thread nD τ).loc main_arg1))))) (fun d => (m ((c : Thread nD τ).loc main_arg3)) (ix1 d)) (m ((c : Thread nD τ).loc main_arg4))) (Cert.ReferenceIdeal.Stages.rowIdx (F := Ideal) (m ((c : Thread nD τ).loc main_arg1))) (Cert.ReferenceIdeal.Stages.colIdx (F := Ideal) (m ((c : Thread nD τ).loc main_arg1))) (Cert.ReferenceIdeal.Stages.normOf (F := Ideal) (Cert.ReferenceIdeal.Stages.rowIdx (F := Ideal) (m ((c : Thread nD τ).loc main_arg1))) (Cert.ReferenceIdeal.Stages.colIdx (F := Ideal) (m ((c : Thread nD τ).loc main_arg1))))) (fun d => (m ((c : Thread nD τ).loc main_arg5)) (ix1 d)) (m ((c : Thread nD τ).loc main_arg6)) ((m ((c : Thread nD τ).loc main_arg7)) (ix1 0))) := by
    refine ((W8_arr m ρ c 4).trans (Cert.KernelIdeal.RegionValue.final2 (V7 m ρ) c)).trans ?_
    show Cert.Gcn.head (W7 m ρ c (Proc.devRef .tc main_v58)) (fun d : Fin 64 => (W7 m ρ c (Proc.devRef .tc main_v59)) (ix2 0 d)) (W7 m ρ c (Proc.devRef .tc main_arg6)) ((W7 m ρ c (Proc.devRef .tc main_v60)) (ix2 0 0)) = _
    rw [y2, b2, a6_7, b3]
  -- the tail
  rw [result_eq_tail m ρ c, x3]
  rfl

end Kernel

end Cert.Bridge

end
-- ==== Proof.lean ====
/-
  A two-layer graph convolution with a linear head, as three pallas_calls among host operations, against its plain
  reference: the certificate's five claims.

  Both programs first make, from the edge list, the source and the target of every message (every edge, then one
  self-loop per node) and the weight of every message, d(source)^(-1/2) · d(target)^(-1/2) with d the number of messages
  arriving at a node. A layer projects the node features, passes the projected rows along the messages (gather at the
  sources, scale, sum at the targets), adds a bias and takes the positive part; the head projects to one column and adds
  its bias; the 150000 results are laid out as 10000 rows of 15 and the first 3 columns dropped.

  The reference does every step as a host operation. The kernel does the same host operations for everything that
  touches the edge list, and does the three dense steps — the first projection; bias, positive part and the second
  projection; bias, positive part, the head's projection and its bias — as pallas_calls over fifteen blocks of 10000
  rows, with operands rounded to a shorter float format on the way into each product. At the exact instance a change
  of float format is the identity and a product accumulated from zero is the plain sum of products, so each
  pallas_call's output array is, entry by entry, the reference's dense step of the arrays the call was entered with
  (the three region-value modules), and what lies between the calls is the reference's own stage (the host-value
  modules). Composing along the run (`Cert.Bridge.kernel_value`) and reading the reference's dense steps entry by
  entry (`Cert.Bridge.ref_value`), both results are one function `Cert.Bridge.value` of the argument arrays. No step
  uses a law that fails at an infinity, so the precondition is never opened.

  The three frames: each kernel program's is the frame certificate of its nine-segment run; the reference's is its
  run with the result dropped. The idealization rewrote no operation, so `preserves` holds trivially.
-/
import proofs.«125318_j61512521613334_1_alg».proof.Defs
import proofs.«125318_j61512521613334_1_alg».proof.Proof.Gen.Kernel
import proofs.«125318_j61512521613334_1_alg».proof.Proof.Gen.Kernel.Skeleton
import proofs.«125318_j61512521613334_1_alg».proof.Proof.Gen.Kernel.Launch
import proofs.«125318_j61512521613334_1_alg».proof.Proof.Gen.Kernel.Points
import proofs.«125318_j61512521613334_1_alg».proof.Proof.Gen.Kernel.Frame
import proofs.«125318_j61512521613334_1_alg».proof.Proof.Gen.KernelIdeal
import proofs.«125318_j61512521613334_1_alg».proof.Proof.Gen.KernelIdeal.Skeleton
import proofs.«125318_j61512521613334_1_alg».proof.Proof.Gen.KernelIdeal.Launch
import proofs.«125318_j61512521613334_1_alg».proof.Proof.Gen.KernelIdeal.Points
import proofs.«125318_j61512521613334_1_alg».proof.Proof.Gen.KernelIdeal.Frame
import proofs.«125318_j61512521613334_1_alg».proof.Proof.Gen.ReferenceIdeal
import proofs.«125318_j61512521613334_1_alg».proof.Proof.RefRun
import proofs.«125318_j61512521613334_1_alg».proof.Proof.Gen.Pre_finite_inputs
import proofs.«125318_j61512521613334_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end, at the exact instance, with the result array at the one
    function `Cert.Bridge.value` of the argument arrays: the kernel's run with its result named and read boundary by
    boundary, the reference's run with its result term cut into stages and its dense stages read entry by entry. -/
theorem algebraic : Cert.algebraic_KernelIdeal_ReferenceIdeal := by
  intro m ρ m' ρ' _ hagree
  refine ⟨fun c => Cert.Bridge.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.kernel_value m ρ c), (h c).2⟩)
      (Cert.KernelIdeal.RunValue.run_value (F := Ideal) m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7⟩ := hagree c
    rw [(h c).1, Cert.ReferenceIdeal.Stages.res_eq, Cert.Bridge.ref_value, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
